-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S8 : Shape := ⟨1, ![8]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_
  reducesTo_S8_S_d0 : S8.ReducesTo [0] S_

variable [Facts]

abbrev lit0 : Fin 8 → BitVec 32 := fun
  | 0 => 4#32 | 1 => 12#32 | 2 => 20#32 | 3 => 28#32 | 4 => 36#32 | 5 => 44#32 | 6 => 52#32 | 7 => 60#32
  | _ => 0#32

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S64x256x56x56 .f32) (main_arg1 : FVec F S256 .f32) (main_arg2 : FVec F S256 .f32) (main_arg3 : IVec S8 32) : IVec S_ 1 :=
  let main_c : IVec S8 32 := fun i => lit0 (S8.rowMajor i)
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c_0 : IVec S_ 1 := constantI S_ 1 1#1
  let main_v3 : IVec S_ 1 := (fun x v => Host.reduce IntOp.andi x v reducesTo_S64x256x56x56_S_d0_1_2_3 h_S_) main_v2 main_c_0
  let main_v4 : FVec F S256 .f32 := Host.absf main_arg1
  let main_cst_1 : FVec F S_ .f32 := constant S_ .f32 0x7F800000#32
  let main_v5 : FVec F S256 .f32 := broadcastInDim S256 ![] bcast_S_S256 main_cst_1
  let main_v6 : IVec S256 1 := cmpf .olt main_v4 main_v5
  let main_c_2 : IVec S_ 1 := constantI S_ 1 1#1
  let main_v7 : IVec S_ 1 := (fun x v => Host.reduce IntOp.andi x v reducesTo_S256_S_d0 h_S_) main_v6 main_c_2
  let main_v8 : IVec S_ 1 := andi main_v3 main_v7
  let main_v9 : FVec F S256 .f32 := Host.absf main_arg2
  let main_cst_3 : FVec F S_ .f32 := constant S_ .f32 0x7F800000#32
  let main_v10 : FVec F S256 .f32 := broadcastInDim S256 ![] bcast_S_S256 main_cst_3
  let main_v11 : IVec S256 1 := cmpf .olt main_v9 main_v10
  let main_c_4 : IVec S_ 1 := constantI S_ 1 1#1
  let main_v12 : IVec S_ 1 := (fun x v => Host.reduce IntOp.andi x v reducesTo_S256_S_d0 h_S_) main_v11 main_c_4
  let main_v13 : IVec S_ 1 := andi main_v8 main_v12
  let main_v14 : IVec S8 1 := cmpi .eq main_arg3 main_c
  let main_c_5 : IVec S_ 1 := constantI S_ 1 1#1
  let main_v15 : IVec S_ 1 := (fun x v => Host.reduce IntOp.andi x v reducesTo_S8_S_d0 h_S_) main_v14 main_c_5
  fn_part1 (F := F) main_v13 main_v15
-- ==== Kernel.lean ====
abbrev S64x256x56x56 : Shape := ⟨4, ![64, 256, 56, 56]⟩
abbrev S256 : Shape := ⟨1, ![256]⟩
abbrev S8 : Shape := ⟨1, ![8]⟩
abbrev S1 : Shape := ⟨1, ![1]⟩
abbrev S7 : Shape := ⟨1, ![7]⟩
abbrev S_ : Shape := ⟨0, ![]⟩
abbrev S8x1 : Shape := ⟨2, ![8, 1]⟩
abbrev S256x1 : Shape := ⟨2, ![256, 1]⟩
abbrev S1x1 : Shape := ⟨2, ![1, 1]⟩
abbrev S16384x3136 : Shape := ⟨2, ![16384, 3136]⟩
abbrev S16384x1 : Shape := ⟨2, ![16384, 1]⟩
abbrev S512x3136 : Shape := ⟨2, ![512, 3136]⟩
abbrev S512x1 : Shape := ⟨2, ![512, 1]⟩
abbrev S512 : Shape := ⟨1, ![512]⟩
abbrev S64x256 : Shape := ⟨2, ![64, 256]⟩
abbrev S256x64 : Shape := ⟨2, ![256, 64]⟩
abbrev S8x64 : Shape := ⟨2, ![8, 64]⟩
abbrev S1x256 : Shape := ⟨2, ![1, 256]⟩
abbrev S256x3136 : Shape := ⟨2, ![256, 3136]⟩

abbrev nBuf : Space → Nat
  | .hbm => 123
  | .vmem => 14
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S8, .i32⟩
  | .hbm, ⟨4, _⟩ => ⟨S8, .i32⟩
  | .hbm, ⟨5, _⟩ => ⟨S1, .i32⟩
  | .hbm, ⟨6, _⟩ => ⟨S7, .i32⟩
  | .hbm, ⟨7, _⟩ => ⟨S8, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S_, .i32⟩
  | .hbm, ⟨16, _⟩ => ⟨S256, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S_, .i32⟩
  | .hbm, ⟨26, _⟩ => ⟨S8, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S16384x3136, .f32⟩
  | .hbm, ⟨57, _⟩ => ⟨S16384x1, .f32⟩
  | .hbm, ⟨58, _⟩ => ⟨S16384x1, .f32⟩
  | .hbm, ⟨59, _⟩ => ⟨S64x256, .f32⟩
  | .hbm, ⟨60, _⟩ => ⟨S64x256, .f32⟩
  | .hbm, ⟨61, _⟩ => ⟨S256x64, .f32⟩
  | .hbm, ⟨62, _⟩ => ⟨S_, .f32⟩
  | .hbm, ⟨63, _⟩ => ⟨S8x64, .f32⟩
  | .hbm, ⟨64, _⟩ => ⟨S256x1, .i32⟩
  | .hbm, ⟨65, _⟩ => ⟨S8x64, .f32⟩
  | .hbm, ⟨66, _⟩ => ⟨S256x64, .f32⟩
  | .hbm, ⟨67, _⟩ => ⟨S_, .f32⟩
  | .hbm, ⟨68, _⟩ => ⟨S8x64, .f32⟩
  | .hbm, ⟨69, _⟩ => ⟨S256x1, .i32⟩
  | .hbm, ⟨70, _⟩ => ⟨S8x64, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8x1, .f32⟩
  | .hbm, ⟨76, _⟩ => ⟨S8x64, .f32⟩
  | .hbm, ⟨77, _⟩ => ⟨S8x64, .f32⟩
  | .hbm, ⟨78, _⟩ => ⟨S8x64, .f32⟩
  | .hbm, ⟨79, _⟩ => ⟨S8x64, .f32⟩
  | .hbm, ⟨80, _⟩ => ⟨S8x64, .f32⟩
  | .hbm, ⟨81, _⟩ => ⟨S8x64, .f32⟩
  | .hbm, ⟨82, _⟩ => ⟨S_, .f32⟩
  | .hbm, ⟨83, _⟩ => ⟨S8x64, .f32⟩
  | .hbm, ⟨84, _⟩ => ⟨S8x64, .f32⟩
  | .hbm, ⟨85, _⟩ => ⟨S_, .f32⟩
  | .hbm, ⟨86, _⟩ => ⟨S8x64, .f32⟩
  | .hbm, ⟨87, _⟩ => ⟨S8x64, .f32⟩
  | .hbm, ⟨88, _⟩ => ⟨S8x64, .f32⟩
  | .hbm, ⟨89, _⟩ => ⟨S_, .f32⟩
  | .hbm, ⟨90, _⟩ => ⟨S8x64, .f32⟩
  | .hbm, ⟨91, _⟩ => ⟨S8x64, .f32⟩
  | .hbm, ⟨92, _⟩ => ⟨S_, .i32⟩
  | .hbm, ⟨93, _⟩ => ⟨S256, .i32⟩
  | .hbm, ⟨94, _⟩ => ⟨S256, .i1⟩
  | .hbm, ⟨95, _⟩ => ⟨S_, .i32⟩
  | .hbm, ⟨96, _⟩ => ⟨S256, .i32⟩
  | .hbm, ⟨97, _⟩ => ⟨S256, .i32⟩
  | .hbm, ⟨98, _⟩ => ⟨S256, .i32⟩
  | .hbm, ⟨99, _⟩ => ⟨S256x1, .i32⟩
  | .hbm, ⟨100, _⟩ => ⟨S256x64, .f32⟩
  | .hbm, ⟨101, _⟩ => ⟨S64x256, .f32⟩
  | .hbm, ⟨102, _⟩ => ⟨S_, .i32⟩
  | .hbm, ⟨103, _⟩ => ⟨S256, .i32⟩
  | .hbm, ⟨104, _⟩ => ⟨S256, .i1⟩
  | .hbm, ⟨105, _⟩ => ⟨S_, .i32⟩
  | .hbm, ⟨106, _⟩ => ⟨S256, .i32⟩
  | .hbm, ⟨107, _⟩ => ⟨S256, .i32⟩
  | .hbm, ⟨108, _⟩ => ⟨S256, .i32⟩
  | .hbm, ⟨109, _⟩ => ⟨S256x1, .i32⟩
  | .hbm, ⟨110, _⟩ => ⟨S256x64, .f32⟩
  | .hbm, ⟨111, _⟩ => ⟨S64x256, .f32⟩
  | .hbm, ⟨112, _⟩ => ⟨S1x256, .f32⟩
  | .hbm, ⟨113, _⟩ => ⟨S64x256, .f32⟩
  | .hbm, ⟨114, _⟩ => ⟨S64x256, .f32⟩
  | .hbm, ⟨115, _⟩ => ⟨S1x256, .f32⟩
  | .hbm, ⟨116, _⟩ => ⟨S64x256, .f32⟩
  | .hbm, ⟨117, _⟩ => ⟨S64x256, .f32⟩
  | .hbm, ⟨118, _⟩ => ⟨S64x256, .f32⟩
  | .hbm, ⟨119, _⟩ => ⟨S16384x1, .f32⟩
  | .hbm, ⟨120, _⟩ => ⟨S16384x1, .f32⟩
  | .hbm, ⟨121, _⟩ => ⟨S16384x3136, .f32⟩
  | .hbm, ⟨122, _⟩ => ⟨S64x256x56x56, .f32⟩
  | .local _ .vmem, ⟨0, _⟩ => ⟨S512x3136, .f32⟩
  | .local _ .vmem, ⟨1, _⟩ => ⟨S512x3136, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S256x3136, .f32⟩
  | .local _ .vmem, ⟨7, _⟩ => ⟨S256x3136, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x3136, .f32⟩
  | .local _ .vmem, ⟨13, _⟩ => ⟨S256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_v19_0 : Ref sig .tc := ⟨.hbm, 57, rfl⟩
abbrev main_v19_1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_6 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_7 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_v41 : Ref sig .tc := ⟨.hbm, 84, rfl⟩
abbrev main_cst_9 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_10 : Ref sig .tc := ⟨.hbm, 89, rfl⟩
abbrev main_v45 : Ref sig .tc := ⟨.hbm, 90, rfl⟩
abbrev main_v46 : Ref sig .tc := ⟨.hbm, 91, rfl⟩
abbrev main_c_11 : Ref sig .tc := ⟨.hbm, 92, rfl⟩
abbrev main_v47 : Ref sig .tc := ⟨.hbm, 93, rfl⟩
abbrev main_v48 : Ref sig .tc := ⟨.hbm, 94, rfl⟩
abbrev main_c_12 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_13 : Ref sig .tc := ⟨.hbm, 102, rfl⟩
abbrev main_v55 : Ref sig .tc := ⟨.hbm, 103, rfl⟩
abbrev main_v56 : Ref sig .tc := ⟨.hbm, 104, rfl⟩
abbrev main_c_14 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3136 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S256 : S_.BroadcastsInDim S256 (![] : Fin 0 → Fin S256.rank)
  bcast_S_S8 : S_.BroadcastsInDim S8 (![] : Fin 0 → Fin S8.rank)
  bcast_S8_S8x1_0 : S8.BroadcastsInDim S8x1 (![0] : Fin 1 → Fin S8x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  shapeCasts_S64x256x56x56_S16384x3136 : S64x256x56x56.ShapeCasts S16384x3136
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  reduces_S512x3136_S512 : S512x3136.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S64x256 : S16384x1.ShapeCasts S64x256
  transposes_S64x256_S256x64_1_0 : S64x256.Transposes [1, 0] S256x64
  bcast_S_S8x64 : S_.BroadcastsInDim S8x64 (![] : Fin 0 → Fin S8x64.rank)
  bcast_S8x1_S8x64_0_1 : S8x1.BroadcastsInDim S8x64 (![0, 1] : Fin 2 → Fin S8x64.rank)
  transposes_S256x64_S64x256_1_0 : S256x64.Transposes [1, 0] S64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S64x256_S16384x1 : S64x256.ShapeCasts S16384x1
  inb_S256x3136_S256x3136_0_0 : ∀ a, (![0, 0] : Fin 2 → Nat) a + S256x3136.size a ≤ S256x3136.size a
  h_S256x3136 : 0 < S256x3136.numel
  shapeCasts_S256x3136_S256x3136 : S256x3136.ShapeCasts S256x3136
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S16384x3136_S64x256x56x56 : S16384x3136.ShapeCasts S64x256x56x56
  scatter_S8_S1_S__n_0_0_0_wf : ScatterDims.WF S8 S1 S_ [] [0] [0] 0
  scatter_S256_S8x1_S8_n_0_0_1_wf : ScatterDims.WF S256 S8x1 S8 [] [0] [0] 1
  gather_S8_S256x1_S256_n_0_n_n_0_1_1_wf : GatherDims.WF S8 S256x1 S256 [] [0] [] [0] [] 1 ![1]
  scatter_S8x64_S256x1_S256x64_1_0_0_1_wf : ScatterDims.WF S8x64 S256x1 S256x64 [1] [0] [0] 1
  gather_S8x64_S256x1_S256x64_1_0_n_n_0_1_164_wf : GatherDims.WF S8x64 S256x1 S256x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3136.size a ≤ S16384x3136.size a
  hwx0_0 : ∀ i : grid0.Coords, EltTy.bits .f32 = 32 ∨ (Rect.block (s := S16384x3136) S512x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3136.size a ≤ S16384x3136.size a
  hwx1_0 : ∀ i : grid1.Coords, EltTy.bits .f32 = 32 ∨ (Rect.block (s := S16384x3136) S256x3136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S16384x1.size a
  hwx1_1 : ∀ i : grid1.Coords, EltTy.bits .f32 = 32 ∨ (Rect.block (s := S16384x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S16384x1.size a
  hwx1_2 : ∀ i : grid1.Coords, EltTy.bits .f32 = 32 ∨ (Rect.block (s := S16384x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x3136.size a ≤ S16384x3136.size a
  hwx1_3 : ∀ i : grid1.Coords, EltTy.bits .f32 = 32 ∨ (Rect.block (s := S16384x3136) S256x3136.size (cc1_transform_3 i) (hinb1_3 i)).WholeWords (EltTy.packing .f32)

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S256_S8x1_S8_n_0_0_1 : ScatterDims S256 S8x1 S8 where
  updateWindowDims := []
  insertedWindowDims := [0]
  scatterDimsToOperandDims := [0]
  indexVectorDim := 1
  wf := scatter_S256_S8x1_S8_n_0_0_1_wf
def gather_S8_S256x1_S256_n_0_n_n_0_1_1 : GatherDims S8 S256x1 S256 where
  offsetDims := []
  collapsedSliceDims := [0]
  operandBatchingDims := []
  startIndicesBatchingDims := []
  startIndexMap := [0]
  indexVectorDim := 1
  sliceSizes := ![1]
  wf := gather_S8_S256x1_S256_n_0_n_n_0_1_1_wf
def scatter_S8x64_S256x1_S256x64_1_0_0_1 : ScatterDims S8x64 S256x1 S256x64 where
  updateWindowDims := [1]
  insertedWindowDims := [0]
  scatterDimsToOperandDims := [0]
  indexVectorDim := 1
  wf := scatter_S8x64_S256x1_S256x64_1_0_0_1_wf
def gather_S8x64_S256x1_S256x64_1_0_n_n_0_1_164 : GatherDims S8x64 S256x1 S256x64 where
  offsetDims := [1]
  collapsedSliceDims := [0]
  operandBatchingDims := []
  startIndicesBatchingDims := []
  startIndexMap := [0]
  indexVectorDim := 1
  sliceSizes := ![1, 64]
  wf := gather_S8x64_S256x1_S256x64_1_0_n_n_0_1_164_wf

abbrev win0_0 : Pipeline.Window sig grid0 :=
  Pipeline.Window.ofSpec (Memref.whole main_v18) S512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S256x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v71) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v72) S256x3136.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S8 : Shape := ⟨1, ![8]⟩
abbrev S1 : Shape := ⟨1, ![1]⟩
abbrev S7 : Shape := ⟨1, ![7]⟩
abbrev S_ : Shape := ⟨0, ![]⟩
abbrev S8x1 : Shape := ⟨2, ![8, 1]⟩
abbrev S256x1 : Shape := ⟨2, ![256, 1]⟩
abbrev S1x1 : Shape := ⟨2, ![1, 1]⟩
abbrev S64x256x3136 : Shape := ⟨3, ![64, 256, 3136]⟩
abbrev S64x256 : Shape := ⟨2, ![64, 256]⟩
abbrev S256x64 : Shape := ⟨2, ![256, 64]⟩
abbrev S8x64 : Shape := ⟨2, ![8, 64]⟩
abbrev S64x256x1 : Shape := ⟨3, ![64, 256, 1]⟩
abbrev S1x256x1 : Shape := ⟨3, ![1, 256, 1]⟩

abbrev nBuf : Space → Nat
  | .hbm => 123
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S8, .i32⟩
  | .hbm, ⟨4, _⟩ => ⟨S8, .i32⟩
  | .hbm, ⟨5, _⟩ => ⟨S1, .i32⟩
  | .hbm, ⟨6, _⟩ => ⟨S7, .i32⟩
  | .hbm, ⟨7, _⟩ => ⟨S8, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S_, .i32⟩
  | .hbm, ⟨16, _⟩ => ⟨S256, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S_, .i32⟩
  | .hbm, ⟨26, _⟩ => ⟨S8, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S64x256x3136, .f32⟩
  | .hbm, ⟨57, _⟩ => ⟨S_, .f32⟩
  | .hbm, ⟨58, _⟩ => ⟨S64x256, .f32⟩
  | .hbm, ⟨59, _⟩ => ⟨S64x256x3136, .f32⟩
  | .hbm, ⟨60, _⟩ => ⟨S_, .f32⟩
  | .hbm, ⟨61, _⟩ => ⟨S64x256, .f32⟩
  | .hbm, ⟨62, _⟩ => ⟨S256x64, .f32⟩
  | .hbm, ⟨63, _⟩ => ⟨S_, .f32⟩
  | .hbm, ⟨64, _⟩ => ⟨S8x64, .f32⟩
  | .hbm, ⟨65, _⟩ => ⟨S256x1, .i32⟩
  | .hbm, ⟨66, _⟩ => ⟨S8x64, .f32⟩
  | .hbm, ⟨67, _⟩ => ⟨S256x64, .f32⟩
  | .hbm, ⟨68, _⟩ => ⟨S_, .f32⟩
  | .hbm, ⟨69, _⟩ => ⟨S8x64, .f32⟩
  | .hbm, ⟨70, _⟩ => ⟨S256x1, .i32⟩
  | .hbm, ⟨71, _⟩ => ⟨S8x64, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8x1, .f32⟩
  | .hbm, ⟨77, _⟩ => ⟨S8x64, .f32⟩
  | .hbm, ⟨78, _⟩ => ⟨S8x64, .f32⟩
  | .hbm, ⟨79, _⟩ => ⟨S8x64, .f32⟩
  | .hbm, ⟨80, _⟩ => ⟨S8x64, .f32⟩
  | .hbm, ⟨81, _⟩ => ⟨S8x64, .f32⟩
  | .hbm, ⟨82, _⟩ => ⟨S8x64, .f32⟩
  | .hbm, ⟨83, _⟩ => ⟨S_, .f32⟩
  | .hbm, ⟨84, _⟩ => ⟨S8x64, .f32⟩
  | .hbm, ⟨85, _⟩ => ⟨S8x64, .f32⟩
  | .hbm, ⟨86, _⟩ => ⟨S8x64, .f32⟩
  | .hbm, ⟨87, _⟩ => ⟨S_, .f32⟩
  | .hbm, ⟨88, _⟩ => ⟨S8x64, .f32⟩
  | .hbm, ⟨89, _⟩ => ⟨S8x64, .f32⟩
  | .hbm, ⟨90, _⟩ => ⟨S_, .i32⟩
  | .hbm, ⟨91, _⟩ => ⟨S256, .i32⟩
  | .hbm, ⟨92, _⟩ => ⟨S256, .i1⟩
  | .hbm, ⟨93, _⟩ => ⟨S_, .i32⟩
  | .hbm, ⟨94, _⟩ => ⟨S256, .i32⟩
  | .hbm, ⟨95, _⟩ => ⟨S256, .i32⟩
  | .hbm, ⟨96, _⟩ => ⟨S256, .i32⟩
  | .hbm, ⟨97, _⟩ => ⟨S256x1, .i32⟩
  | .hbm, ⟨98, _⟩ => ⟨S256x64, .f32⟩
  | .hbm, ⟨99, _⟩ => ⟨S64x256, .f32⟩
  | .hbm, ⟨100, _⟩ => ⟨S64x256x1, .f32⟩
  | .hbm, ⟨101, _⟩ => ⟨S_, .i32⟩
  | .hbm, ⟨102, _⟩ => ⟨S256, .i32⟩
  | .hbm, ⟨103, _⟩ => ⟨S256, .i1⟩
  | .hbm, ⟨104, _⟩ => ⟨S_, .i32⟩
  | .hbm, ⟨105, _⟩ => ⟨S256, .i32⟩
  | .hbm, ⟨106, _⟩ => ⟨S256, .i32⟩
  | .hbm, ⟨107, _⟩ => ⟨S256, .i32⟩
  | .hbm, ⟨108, _⟩ => ⟨S256x1, .i32⟩
  | .hbm, ⟨109, _⟩ => ⟨S256x64, .f32⟩
  | .hbm, ⟨110, _⟩ => ⟨S64x256, .f32⟩
  | .hbm, ⟨111, _⟩ => ⟨S64x256x1, .f32⟩
  | .hbm, ⟨112, _⟩ => ⟨S64x256x3136, .f32⟩
  | .hbm, ⟨113, _⟩ => ⟨S64x256x3136, .f32⟩
  | .hbm, ⟨114, _⟩ => ⟨S64x256x3136, .f32⟩
  | .hbm, ⟨115, _⟩ => ⟨S64x256x3136, .f32⟩
  | .hbm, ⟨116, _⟩ => ⟨S1x256x1, .f32⟩
  | .hbm, ⟨117, _⟩ => ⟨S64x256x3136, .f32⟩
  | .hbm, ⟨118, _⟩ => ⟨S64x256x3136, .f32⟩
  | .hbm, ⟨119, _⟩ => ⟨S1x256x1, .f32⟩
  | .hbm, ⟨120, _⟩ => ⟨S64x256x3136, .f32⟩
  | .hbm, ⟨121, _⟩ => ⟨S64x256x3136, .f32⟩
  | .hbm, ⟨122, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_cst : Ref sig .tc := ⟨.hbm, 57, rfl⟩
abbrev main_v19 : Ref sig .tc := ⟨.hbm, 58, rfl⟩
abbrev main_v20 : Ref sig .tc := ⟨.hbm, 59, rfl⟩
abbrev main_cst_6 : Ref sig .tc := ⟨.hbm, 60, rfl⟩
abbrev main_v21 : Ref sig .tc := ⟨.hbm, 61, rfl⟩
abbrev main_v22 : Ref sig .tc := ⟨.hbm, 62, rfl⟩
abbrev main_cst_7 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_8 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_9 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_10 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_11 : Ref sig .tc := ⟨.hbm, 87, rfl⟩
abbrev main_v43 : Ref sig .tc := ⟨.hbm, 88, rfl⟩
abbrev main_v44 : Ref sig .tc := ⟨.hbm, 89, rfl⟩
abbrev main_c_12 : Ref sig .tc := ⟨.hbm, 90, rfl⟩
abbrev main_v45 : Ref sig .tc := ⟨.hbm, 91, rfl⟩
abbrev main_v46 : Ref sig .tc := ⟨.hbm, 92, rfl⟩
abbrev main_c_13 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_14 : Ref sig .tc := ⟨.hbm, 101, rfl⟩
abbrev main_v54 : Ref sig .tc := ⟨.hbm, 102, rfl⟩
abbrev main_v55 : Ref sig .tc := ⟨.hbm, 103, rfl⟩
abbrev main_c_15 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]

class Facts₀ : Prop where
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S256 : S_.BroadcastsInDim S256 (![] : Fin 0 → Fin S256.rank)
  bcast_S_S8 : S_.BroadcastsInDim S8 (![] : Fin 0 → Fin S8.rank)
  bcast_S8_S8x1_0 : S8.BroadcastsInDim S8x1 (![0] : Fin 1 → Fin S8x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  shapeCasts_S64x256x56x56_S64x256x3136 : S64x256x56x56.ShapeCasts S64x256x3136
  reducesTo_S64x256x3136_S64x256_d2 : S64x256x3136.ReducesTo [2] S64x256
  transposes_S64x256_S256x64_1_0 : S64x256.Transposes [1, 0] S256x64
  bcast_S_S8x64 : S_.BroadcastsInDim S8x64 (![] : Fin 0 → Fin S8x64.rank)
  bcast_S8x1_S8x64_0_1 : S8x1.BroadcastsInDim S8x64 (![0, 1] : Fin 2 → Fin S8x64.rank)
  transposes_S256x64_S64x256_1_0 : S256x64.Transposes [1, 0] S64x256
  bcast_S64x256_S64x256x1_0_1 : S64x256.BroadcastsInDim S64x256x1 (![0, 1] : Fin 2 → Fin S64x256x1.rank)
  bcast_S64x256x1_S64x256x3136_0_1_2 : S64x256x1.BroadcastsInDim S64x256x3136 (![0, 1, 2] : Fin 3 → Fin S64x256x3136.rank)
  bcast_S256_S1x256x1_1 : S256.BroadcastsInDim S1x256x1 (![1] : Fin 1 → Fin S1x256x1.rank)
  bcast_S1x256x1_S64x256x3136_0_1_2 : S1x256x1.BroadcastsInDim S64x256x3136 (![0, 1, 2] : Fin 3 → Fin S64x256x3136.rank)
  shapeCasts_S64x256x3136_S64x256x56x56 : S64x256x3136.ShapeCasts S64x256x56x56
  scatter_S8_S1_S__n_0_0_0_wf : ScatterDims.WF S8 S1 S_ [] [0] [0] 0
  scatter_S256_S8x1_S8_n_0_0_1_wf : ScatterDims.WF S256 S8x1 S8 [] [0] [0] 1
  gather_S8_S256x1_S256_n_0_n_n_0_1_1_wf : GatherDims.WF S8 S256x1 S256 [] [0] [] [0] [] 1 ![1]
  scatter_S8x64_S256x1_S256x64_1_0_0_1_wf : ScatterDims.WF S8x64 S256x1 S256x64 [1] [0] [0] 1
  gather_S8x64_S256x1_S256x64_1_0_n_n_0_1_164_wf : GatherDims.WF S8x64 S256x1 S256x64 [1] [0] [] [0] [] 1 ![1, 64]

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S256_S8x1_S8_n_0_0_1 : ScatterDims S256 S8x1 S8 where
  updateWindowDims := []
  insertedWindowDims := [0]
  scatterDimsToOperandDims := [0]
  indexVectorDim := 1
  wf := scatter_S256_S8x1_S8_n_0_0_1_wf
def gather_S8_S256x1_S256_n_0_n_n_0_1_1 : GatherDims S8 S256x1 S256 where
  offsetDims := []
  collapsedSliceDims := [0]
  operandBatchingDims := []
  startIndicesBatchingDims := []
  startIndexMap := [0]
  indexVectorDim := 1
  sliceSizes := ![1]
  wf := gather_S8_S256x1_S256_n_0_n_n_0_1_1_wf
def scatter_S8x64_S256x1_S256x64_1_0_0_1 : ScatterDims S8x64 S256x1 S256x64 where
  updateWindowDims := [1]
  insertedWindowDims := [0]
  scatterDimsToOperandDims := [0]
  indexVectorDim := 1
  wf := scatter_S8x64_S256x1_S256x64_1_0_0_1_wf
def gather_S8x64_S256x1_S256x64_1_0_n_n_0_1_164 : GatherDims S8x64 S256x1 S256x64 where
  offsetDims := [1]
  collapsedSliceDims := [0]
  operandBatchingDims := []
  startIndicesBatchingDims := []
  startIndexMap := [0]
  indexVectorDim := 1
  sliceSizes := ![1, 64]
  wf := gather_S8x64_S256x1_S256x64_1_0_n_n_0_1_164_wf

class Facts : Prop extends Facts₀ where

variable [Facts]
-- ==== Proof.KerRun.lean ====
/-
  The kernel program's run with its result named: every weakly fair execution from a memory with zero counters
  terminates; the result buffer ends at the last boundary's contents (the fold, from the launch memory, of every host
  stretch and of both regions' write-backs) and the four argument arrays end as launched.
-/
import proofs.«117900_j4363686773082_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- Every weakly fair execution of the program from a memory with zero counters terminates, and in every final
    state the result buffer holds the last boundary's contents `W13` (the fold of every host stretch and of both
    regions' write-backs from the launch memory) while the four argument arrays are as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v73) = Gen.W13 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v73 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.KernelIdeal.KerRun

end
-- ==== Proof.Spec.lean ====
/-
  The two programs' shared arithmetic, written once as functions of the argument arrays.

  Channels c = 0..255 are cut into eight consecutive groups whose sizes are `group_sizes`; `gid` is the map
  channel -> group (jnp.repeat of 0..7 by the sizes: an exclusive prefix sum of the sizes marks each group's first
  channel, a prefix sum of the marks numbers the channels). For a sample n and group g, with S the sum and Q the
  sum of squares of x over the group's channels and all 3136 positions, and cnt = size(g) * 3136:
      mu = S / cnt,   var = Q / cnt - mu^2,   ivar = 1 / sqrt (var + eps).
  The reference returns (x - mu) * ivar * weight + bias; the kernel clamps var at 0 from below, folds
  scale = ivar * weight and shift = bias - mu * scale per (n, c) row, and returns x * scale + shift.
-/
import proofs.«117900_j4363686773082_2_alg».proof.ReferenceIdeal
import proofs.«117900_j4363686773082_2_alg».proof.Proof.Gen.ReferenceIdeal
import Idealize.ShloMosaic.Lib.ValueIdx

noncomputable section

namespace Cert.GN

open Idealize.ShloMosaic Idealize.ShloMosaic.ValueIdx Cert.ReferenceIdeal Cert.ReferenceIdeal.Facts₀

abbrev S1x256 : Shape := ⟨2, ![1, 256]⟩
abbrev S16384x1 : Shape := ⟨2, ![16384, 1]⟩
abbrev S16384x3136 : Shape := ⟨2, ![16384, 3136]⟩

variable {F : FTy → Type} [FloatOps F]

/-! ## The integer chain: channel -> group -/

/-- The sizes shifted right by one place with a zero in front: the summands of the exclusive prefix sum. -/
def shifted (gs : IVec S8 32) : IVec S8 32 :=
  Host.scatter scatter_S8_S1_S__n_0_0_0 (fun _ b => b)
    (concatenate S8 0 [⟨S1, extractStridedSlice S1 ![7] gs slices_S8_S1_7⟩, ⟨S7, extractStridedSlice S7 ![0] gs slices_S8_S7_0⟩] concatenates_S1_S7_S8_d0)
    (broadcastInDim S1 ![] bcast_S_S1 (constantI S_ 32 0#32)) (constantI S_ 32 0#32)

/-- Each group's first channel: the prefix sum of `shifted` (a negative value counted from the end, as jnp indexes). -/
def starts (gs : IVec S8 32) : IVec S8 32 :=
  let v4 : IVec S8 32 := Host.reduceWindow IntOp.addi ![8] ![1] ![7] ![0] (shifted gs)
    (broadcastInDim S_ ![] bcast_S_S_ (constantI S_ 32 0#32)) reduceWindows_S8_S8_w8s1p7_0 h_S_
  select (cmpi .slt v4 (broadcastInDim S8 ![] bcast_S_S8 (constantI S_ 32 0#32)))
    (addi v4 (broadcastInDim S8 ![] bcast_S_S8 (constantI S_ 32 256#32))) v4

/-- How many groups start at each channel. -/
def marks (gs : IVec S8 32) : IVec S256 32 :=
  Host.scatter scatter_S256_S8x1_S8_n_0_0_1 IntOp.addi (broadcastInDim S256 ![] bcast_S_S256 (constantI S_ 32 0#32))
    (broadcastInDim S8x1 ![0] bcast_S8_S8x1_0 (starts gs)) (broadcastInDim S8 ![] bcast_S_S8 (constantI S_ 32 1#32))

/-- The number of groups started at or before each channel, minus one. -/
def slot (gs : IVec S8 32) : IVec S256 32 :=
  subi (Host.reduceWindow IntOp.addi ![256] ![1] ![255] ![0] (marks gs)
      (broadcastInDim S_ ![] bcast_S_S_ (constantI S_ 32 0#32)) reduceWindows_S256_S256_w256s1p255_0 h_S_)
    (broadcastInDim S256 ![] bcast_S_S256 (constantI S_ 32 1#32))

/-- `tbl[i]` as jnp.take lowers it: negative indices counted from the end, then a gather, and the fill value where
    the index is outside `[0, 7]`. -/
def take8 (tbl : IVec S8 32) (i : IVec S256 32) : IVec S256 32 :=
  let j : IVec S256 32 := select (cmpi .slt i (broadcastInDim S256 ![] bcast_S_S256 (constantI S_ 32 0#32)))
    (addi i (broadcastInDim S256 ![] bcast_S_S256 (constantI S_ 32 8#32))) i
  let j1 : IVec S256x1 32 := broadcastInDim S256x1 ![0] bcast_S256_S256x1_0 j
  let ok : IVec S256 1 := Host.reduce IntOp.andi
    (andi (cmpi .sge j1 (broadcastInDim S256x1 ![] bcast_S_S256x1 (constantI S_ 32 0#32)))
      (cmpi .sle j1 (broadcastInDim S256x1 ![0, 1] bcast_S1x1_S256x1_0_1 (broadcastInDim S1x1 ![1] bcast_S1_S1x1_1 (constantI S1 32 7#32)))))
    (constantI S_ 1 1#1) reducesTo_S256x1_S256_d1 h_S_
  select ok (Host.gather gather_S8_S256x1_S256_n_0_n_n_0_1_1 tbl j1) (broadcastInDim S256 ![] bcast_S_S256 (constantI S_ 32 2147483648#32))

/-- Channel -> group. -/
def gid (gs : IVec S8 32) : IVec S256 32 := take8 (iotaInDim S8 32 0) (slot gs)

/-! ## The float chain -/

/-- The zero [8, 64] array a segment sum starts from. -/
def zero8x64 : FVec F S8x64 .f32 := broadcastInDim S8x64 ![] bcast_S_S8x64 (constant S_ .f32 0x00000000#32)

/-- Segment sum over channels: `out[g, n] = sum of a[n, c] over the channels c of group g`. -/
def seg (g : IVec S256 32) (a : FVec F S64x256 .f32) : FVec F S8x64 .f32 :=
  Host.scatterAdd scatter_S8x64_S256x1_S256x64_1_0_0_1 zero8x64 (broadcastInDim S256x1 ![0] bcast_S256_S256x1_0 g)
    (transpose S256x64 [1, 0] a transposes_S64x256_S256x64_1_0)

/-- Elements per group and sample: `group_sizes[g] * 3136`, laid out [8, 64]. -/
def cnt (gs : IVec S8 32) : FVec F S8x64 .f32 :=
  broadcastInDim S8x64 ![0, 1] bcast_S8x1_S8x64_0_1 (broadcastInDim S8x1 ![0] bcast_S8_S8x1_0
    (mulf (sitofp .f32 gs) (broadcastInDim S8 ![] bcast_S_S8 (constant S_ .f32 0x45440000#32))))

/-- The group mean from the group sum. -/
def mean (s c : FVec F S8x64 .f32) : FVec F S8x64 .f32 := Host.divf s c

/-- The (biased) group variance from the group sum of squares and sum. -/
def vari (q s c : FVec F S8x64 .f32) : FVec F S8x64 .f32 := subf (Host.divf q c) (mulf (mean s c) (mean s c))

/-- `1 / sqrt (v + eps)`. -/
def ivar (v : FVec F S8x64 .f32) : FVec F S8x64 .f32 :=
  Host.divf (broadcastInDim S8x64 ![] bcast_S_S8x64 (constant S_ .f32 0x3F800000#32))
    (Host.sqrt (addf v (broadcastInDim S8x64 ![] bcast_S_S8x64 (constant S_ .f32 0x2B8CBCCC#32))))

/-- A per-group statistic spread to channels: `out[n, c] = a[gid c, n]`. -/
def perCh (g : IVec S256 32) (a : FVec F S8x64 .f32) : FVec F S64x256 .f32 :=
  transpose S64x256 [1, 0] (Host.gather gather_S8x64_S256x1_S256x64_1_0_n_n_0_1_164 a
    (broadcastInDim S256x1 ![0] bcast_S256_S256x1_0
      (select (cmpi .slt g (broadcastInDim S256 ![] bcast_S_S256 (constantI S_ 32 0#32)))
        (addi g (broadcastInDim S256 ![] bcast_S_S256 (constantI S_ 32 8#32))) g))) transposes_S256x64_S64x256_1_0

/-- x as [64, 256, 3136]. -/
def x3 (x : FVec F S64x256x56x56 .f32) : FVec F S64x256x3136 .f32 := shapeCast S64x256x3136 x shapeCasts_S64x256x56x56_S64x256x3136

/-- A per-(n, c) value spread over the 3136 positions. -/
def spread (a : FVec F S64x256 .f32) : FVec F S64x256x3136 .f32 :=
  broadcastInDim S64x256x3136 ![0, 1, 2] bcast_S64x256x1_S64x256x3136_0_1_2 (broadcastInDim S64x256x1 ![0, 1] bcast_S64x256_S64x256x1_0_1 a)

/-- A per-channel value spread over samples and positions. -/
def spreadCh (w : FVec F S256 .f32) : FVec F S64x256x3136 .f32 :=
  broadcastInDim S64x256x3136 ![0, 1, 2] bcast_S1x256x1_S64x256x3136_0_1_2 (broadcastInDim S1x256x1 ![1] bcast_S256_S1x256x1_1 w)

/-- The reference's per-channel sums of x and of x^2. -/
def chSum (x : FVec F S64x256x56x56 .f32) : FVec F S64x256 .f32 :=
  Host.reduceAdd (x3 x) (constant S_ .f32 0x00000000#32) reducesTo_S64x256x3136_S64x256_d2 h_S_
def chSq (x : FVec F S64x256x56x56 .f32) : FVec F S64x256 .f32 :=
  Host.reduceAdd (mulf (x3 x) (x3 x)) (constant S_ .f32 0x00000000#32) reducesTo_S64x256x3136_S64x256_d2 h_S_

/-- The reference's result from per-channel mean and inverse deviation. -/
def refTail (x : FVec F S64x256x56x56 .f32) (w b : FVec F S256 .f32) (mc ic : FVec F S64x256 .f32) : FVec F S64x256x56x56 .f32 :=
  shapeCast S64x256x56x56 (addf (mulf (mulf (subf (x3 x) (spread mc)) (spread ic)) (spreadCh w)) (spreadCh b))
    shapeCasts_S64x256x3136_S64x256x56x56

/-- THE REFERENCE's result as one function of its four arguments. -/
def refOut (x : FVec F S64x256x56x56 .f32) (w b : FVec F S256 .f32) (gs : IVec S8 32) : FVec F S64x256x56x56 .f32 :=
  let g := gid gs
  let c : FVec F S8x64 .f32 := cnt gs
  let s := seg g (chSum x)
  let q := seg g (chSq x)
  refTail x w b (perCh g (mean s c)) (perCh g (ivar (vari q s c)))

/-! ## The kernel's side -/

/-- A per-channel value spread over samples, [64, 256]. -/
def spreadCh2 (w : FVec F S256 .f32) : FVec F S64x256 .f32 :=
  broadcastInDim S64x256 ![0, 1] (by decide) (broadcastInDim S1x256 ![1] (by decide) w)

/-- The variance as the kernel uses it: clamped at 0 from below. -/
def clampVar (v : FVec F S8x64 .f32) : FVec F S8x64 .f32 := maximumf v zero8x64

/-- The kernel's folded per-(n, c) scale `ivar * weight`. -/
def kerScale (w : FVec F S256 .f32) (ic : FVec F S64x256 .f32) : FVec F S64x256 .f32 := mulf ic (spreadCh2 w)

/-- The kernel's folded per-(n, c) shift `bias - mu * scale`. -/
def kerShift (w b : FVec F S256 .f32) (mc ic : FVec F S64x256 .f32) : FVec F S64x256 .f32 :=
  subf (spreadCh2 b) (mulf mc (kerScale w ic))

/-- x as [16384, 3136]: one row per (n, c). -/
def x2 (x : FVec F S64x256x56x56 .f32) : FVec F S16384x3136 .f32 := shapeCast S16384x3136 x (by decide)

/-- The row of a [16384, k] index, as an index of a [16384, 1] column. -/
abbrev rowOf {k : Nat} (j : (⟨2, ![16384, k]⟩ : Shape).Idx) : S16384x1.Idx := ix2 (n0 := 16384) (n1 := 1) ⟨(j 0).val, idx2_lt0 j⟩ 0

/-- Per-row sums over the 3136 positions, as a [16384, 1] column (extended reals). -/
def rowSum (a : FVec Ideal S16384x3136 .f32) : FVec Ideal S16384x1 .f32 :=
  fun i => ∑ l : Fin 3136, a (ix2 (n0 := 16384) (n1 := 3136) ⟨(i 0).val, idx2_lt0 i⟩ l)

/-- Per-row sums of squares. -/
def rowSq (a : FVec Ideal S16384x3136 .f32) : FVec Ideal S16384x1 .f32 :=
  fun i => ∑ l : Fin 3136, a (ix2 (n0 := 16384) (n1 := 3136) ⟨(i 0).val, idx2_lt0 i⟩ l) * a (ix2 (n0 := 16384) (n1 := 3136) ⟨(i 0).val, idx2_lt0 i⟩ l)

/-- The second region's result: each row of `a` times its row's scale plus its row's shift. -/
def affine (a : FVec Ideal S16384x3136 .f32) (sc sh : FVec Ideal S16384x1 .f32) : FVec Ideal S16384x3136 .f32 :=
  fun j => a j * sc (rowOf j) + sh (rowOf j)

/-- THE KERNEL's result (extended reals) as one function of its four arguments. -/
def kerOut (x : FVec Ideal S64x256x56x56 .f32) (w b : FVec Ideal S256 .f32) (gs : IVec S8 32) : FVec Ideal S64x256x56x56 .f32 :=
  let g := gid gs
  let c : FVec Ideal S8x64 .f32 := cnt gs
  let s := seg g (shapeCast S64x256 (rowSum (x2 x)) (by decide))
  let q := seg g (shapeCast S64x256 (rowSq (x2 x)) (by decide))
  let mc := perCh g (mean s c)
  let ic := perCh g (ivar (clampVar (vari q s c)))
  shapeCast S64x256x56x56 (affine (x2 x) (shapeCast S16384x1 (kerScale w ic) (by decide)) (shapeCast S16384x1 (kerShift w b mc ic) (by decide))) (by decide)

end Cert.GN

end
-- ==== Proof.NormArray.lean ====
/-
  The second region's output array: grid point t writes rows 256 t .. 256 t + 255, each element the input's element
  times its row's scale plus its row's shift; the 64 blocks tile the [16384, 3136] array, so the array after the
  region is that one function of the three input arrays.
-/
import proofs.«117900_j4363686773082_2_alg».proof.Proof.Gen.KernelIdeal.Frame
import proofs.«117900_j4363686773082_2_alg».proof.Proof.Spec
import Idealize.ShloMosaic.Lib.Pipeline.Value
import Idealize.ShloMosaic.Lib.ValueIdx

noncomputable section

namespace Cert.KernelIdeal.NormArray

open Cert.KernelIdeal Cert.KernelIdeal.Gen Idealize.ShloMosaic Idealize.ShloMosaic.TcCoe Idealize.SL.Sem
open Idealize.ShloMosaic.Pipeline (Dat)
open Idealize.ShloMosaic.ValueIdx

-- the buffer contents when the second region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's value at an index `y` of its [256, 3136] block: the element there times the scale of its row plus the
    shift of its row (the two [256, 1] columns are broadcast along the row). -/
theorem pay_apply (x0 : Vec Ideal S256x3136 .f32) (x1 x2 : Vec Ideal S256x1 .f32) (y : S256x3136.Idx) (r : S256x1.Idx)
    (hr : (r 0).val = (y 0).val) :
    k1_pay1 x0 x1 x2 y = x0 y * x1 r + x2 r := by
  have hb : ∀ x : Vec Ideal S256x1 .f32, broadcastTo S256x3136 x broadcasts_S256x1_S256x3136 y = x r := fun x =>
    broadcastTo_apply x broadcasts_S256x1_S256x3136 y r fun a => by
      match a with
      | ⟨0, _⟩ =>
        show (r 0).val = if (256 : Nat) = 1 then 0 else (y 0).val
        rw [if_neg (by decide)]; exact hr
      | ⟨1, _⟩ =>
        show (r 1).val = if (1 : Nat) = 1 then 0 else (y 1).val
        rw [if_pos rfl]
        have h : (r 1).val < 1 := (r 1).isLt
        omega
  unfold k1_pay1
  simp only [shapeCast_self]
  show x0 y * broadcastTo S256x3136 x1 broadcasts_S256x1_S256x3136 y + broadcastTo S256x3136 x2 broadcasts_S256x1_S256x3136 y = _
  rw [hb x1, hb x2]

/-- At grid point `t` every window is at block (t, 0): decided over the 64 points. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The input's block at point `t` is rows 256 t … 256 t + 255 of the [16384, 3136] array. -/
theorem blk0_apply (c : Dev nD) (t : Fin cfg1.N) (y : S256x3136.Idx) (k : S16384x3136.Idx)
    (hk0 : (k 0).val = t.val * 256 + (y 0).val) (hk1 : (k 1).val = (y 1).val) :
    (iblk1 V c 0 t : Vec Ideal S256x3136 .f32) y = (V c main_v18 : S16384x3136.Idx → Elt Ideal .f32) k := by
  obtain ⟨e0, e1, -⟩ := idx_facts t
  unfold iblk1
  rw [View.read_apply]
  show V c main_v18 _ = V c main_v18 _
  congr 1
  funext a
  apply Fin.ext
  match a with
  | ⟨0, _⟩ => show win1_0.index t 0 * 256 + 1 * (y 0).val = (k 0).val; rw [e0, hk0]; omega
  | ⟨1, _⟩ => show win1_0.index t 1 * 3136 + 1 * (y 1).val = (k 1).val; rw [e1, hk1]; omega

/-- The scale column's block at point `t` is rows 256 t … 256 t + 255 of the [16384, 1] column. -/
theorem blk1_apply (c : Dev nD) (t : Fin cfg1.N) (r : S256x1.Idx) (k : S16384x1.Idx)
    (hk0 : (k 0).val = t.val * 256 + (r 0).val) :
    (iblk1 V c 1 t : Vec Ideal S256x1 .f32) r = (V c main_v70 : S16384x1.Idx → Elt Ideal .f32) k := by
  obtain ⟨-, -, e0, e1, -⟩ := idx_facts t
  have hr : (r 1).val < 1 := (r 1).isLt
  have hk : (k 1).val < 1 := (k 1).isLt
  unfold iblk1
  rw [View.read_apply]
  show V c main_v70 _ = V c main_v70 _
  congr 1
  funext a
  apply Fin.ext
  match a with
  | ⟨0, _⟩ => show win1_1.index t 0 * 256 + 1 * (r 0).val = (k 0).val; rw [e0, hk0]; omega
  | ⟨1, _⟩ => show win1_1.index t 1 * 1 + 1 * (r 1).val = (k 1).val; rw [e1]; omega

/-- The shift column's block at point `t`, likewise. -/
theorem blk2_apply (c : Dev nD) (t : Fin cfg1.N) (r : S256x1.Idx) (k : S16384x1.Idx)
    (hk0 : (k 0).val = t.val * 256 + (r 0).val) :
    (iblk1 V c 2 t : Vec Ideal S256x1 .f32) r = (V c main_v71 : S16384x1.Idx → Elt Ideal .f32) k := by
  obtain ⟨-, -, -, -, e0, e1, -⟩ := idx_facts t
  have hr : (r 1).val < 1 := (r 1).isLt
  have hk : (k 1).val < 1 := (k 1).isLt
  unfold iblk1
  rw [View.read_apply]
  show V c main_v71 _ = V c main_v71 _
  congr 1
  funext a
  apply Fin.ext
  match a with
  | ⟨0, _⟩ => show win1_2.index t 0 * 256 + 1 * (r 0).val = (k 0).val; rw [e0, hk0]; omega
  | ⟨1, _⟩ => show win1_2.index t 1 * 1 + 1 * (r 1).val = (k 1).val; rw [e1]; omega

/-- What point `t` writes back is block `t` of `x * scale + shift` (row-wise) of the three arrays as the region finds them. -/
theorem flushed_eq (c : Dev nD) (t : Fin cfg1.N) :
    (dat1 V c).flushed 3 t = ((cfg1.win 3).blk t).view.read (Elt Ideal)
      (Cert.GN.affine (V c main_v18) (V c main_v70) (V c main_v71)) := by
  show (cfg1.win 3).cut (grid1.coords t) ((dat1 V c).after 3 t) = _
  rw [after1_3]
  unfold out1_3
  rw [View.canon_unit_zero hz]
  simp only [View.ld_unit_zero (S := S256x3136) hz, View.ld_unit_zero (S := S256x1) hz]
  obtain ⟨-, -, -, -, -, -, e6, e7⟩ := idx_facts t
  funext j
  have hj0 : (j 0).val < 256 := (j 0).isLt
  have hj1 : (j 1).val < 3136 := (j 1).isLt
  have hk0 : ((((cfg1.win 3).blk t).view.emb j) 0).val = t.val * 256 + (j 0).val := by
    show win1_3.index t 0 * 256 + 1 * (j 0).val = _; rw [e6]; omega
  have hk1 : ((((cfg1.win 3).blk t).view.emb j) 1).val = (j 1).val := by
    show win1_3.index t 1 * 3136 + 1 * (j 1).val = _; rw [e7]; omega
  refine (pay_apply (iblk1 V c 0 t) (iblk1 V c 1 t) (iblk1 V c 2 t) j (ix2 (n0 := 256) (n1 := 1) ⟨(j 0).val, hj0⟩ 0) rfl).trans ?_
  show _ = Cert.GN.affine (V c main_v18) (V c main_v70) (V c main_v71) (((cfg1.win 3).blk t).view.emb j)
  unfold Cert.GN.affine
  exact congrArg₂ (· + ·)
    (congrArg₂ (· * ·) (blk0_apply V c t j _ hk0 hk1) (blk1_apply V c t _ _ hk0))
    (blk2_apply V c t _ _ hk0)

/-- An index of the array is in point `t`'s block iff each coordinate is in the block's range on its axis. -/
theorem mem_blk (t : Fin cfg1.N) (i : S16384x3136.Idx) :
    i ∈ ((cfg1.win 3).blk t).view.set ↔ ∀ a : Fin 2, win1_3.index t a * S256x3136.size a ≤ (i a).val ∧ (i a).val < win1_3.index t a * S256x3136.size a + S256x3136.size a := by
  show i ∈ ((View.whole main_v72).slice (win1_3.rect t)).set ↔ _
  rw [View.set_slice_whole, Rect.mem_set_unit]
  exact Iff.rfl

/-- Row `r` of the array is in the block of point `r / 256`: the 64 blocks cover the array. -/
theorem cover (i : S16384x3136.Idx) :
    ∃ t : Fin cfg1.N, (cfg1.win 3).flush t = true ∧ i ∈ ((cfg1.win 3).blk t).view.set := by
  have hi0 : (i 0).val < 16384 := (i 0).isLt
  have hi1 : (i 1).val < 3136 := (i 1).isLt
  have hN : cfg1.N = 64 := N_1
  have ht : (i 0).val / 256 < cfg1.N := by rw [hN]; omega
  obtain ⟨-, -, -, -, -, -, e6, e7⟩ := idx_facts ⟨(i 0).val / 256, ht⟩
  refine ⟨⟨(i 0).val / 256, ht⟩, flush1_3 _, ?_⟩
  rw [mem_blk]
  intro a
  match a with
  | ⟨0, _⟩ =>
    show win1_3.index ⟨(i 0).val / 256, ht⟩ 0 * 256 ≤ (i 0).val ∧ (i 0).val < win1_3.index ⟨(i 0).val / 256, ht⟩ 0 * 256 + 256
    rw [e6]; show (i 0).val / 256 * 256 ≤ (i 0).val ∧ (i 0).val < (i 0).val / 256 * 256 + 256; omega
  | ⟨1, _⟩ =>
    show win1_3.index ⟨(i 0).val / 256, ht⟩ 1 * 3136 ≤ (i 1).val ∧ (i 1).val < win1_3.index ⟨(i 0).val / 256, ht⟩ 1 * 3136 + 3136
    rw [e7]; omega

/-- THE SECOND REGION'S RESULT ARRAY after its write-backs: each element of the input array times its row's scale plus
    its row's shift, as one function of the three arrays the region is entered with. -/
theorem final (c : Dev nD) :
    (dat1 V c).arrAt 3 cfg1.N = Cert.GN.affine (V c main_v18) (V c main_v70) (V c main_v71) :=
  (dat1 V c).arrAt_eq_of_cover 3 _ (fun t _ => flushed_eq V c t) cover

end Cert.KernelIdeal.NormArray

end
-- ==== Proof.StatsArray.lean ====
/-
  The first region's two output arrays: grid point t writes rows 512 t .. 512 t + 511 of two [16384, 1] columns, the
  sum over the 3136 positions of the row and the sum of its squares; the 32 blocks tile the columns, so the arrays
  after the region are the row sums and the row sums of squares of the input array.
-/
import proofs.«117900_j4363686773082_2_alg».proof.Proof.Gen.KernelIdeal.Frame
import proofs.«117900_j4363686773082_2_alg».proof.Proof.Spec
import Idealize.ShloMosaic.Lib.Pipeline.Value
import Idealize.ShloMosaic.Lib.ValueIdx
import Idealize.ShloMosaic.PureOps.Ideal.Laws

noncomputable section

namespace Cert.KernelIdeal.StatsArray

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the buffer contents when the first region is entered: any
variable (V : (c : Dev nD) → (b : Ref sig .tc) → Buf (Elt Ideal) ((c : Thread nD τ).loc b))

theorem hz : (![0, 0] : Fin 2 → Nat) = fun _ => 0 := funext fun a => by fin_cases a <;> rfl

/-- The sum over the second axis of a [512, 3136] block, at row `p`, is the sum of that row's 3136 entries. -/
theorem laneSum (src : FVec Ideal S512x3136 .f32) (p : Fin 512) :
    multiReduction .add [1] S512 src 0x00000000#32 reduces_S512x3136_S512 (.inl rfl) rfl (ix1 p)
      = ∑ l : Fin 3136, src (ix2 p l) := by
  refine (Ideal.multiReduction_add_single src 0x00000000#32 reduces_S512x3136_S512 (.inl rfl) rfl (ix1 p)).trans ?_
  show ∑ l : Fin 3136, src (reduces_S512x3136_S512.lift (ix1 p) l) = _
  refine Finset.sum_congr rfl fun l _ => congrArg src ?_
  funext a
  match a with
  | ⟨0, _⟩ => rfl
  | ⟨1, _⟩ => rfl

/-- A [512] vector recast as a [512, 1] column, at an index of row `p`, is the vector at `p`. -/
theorem column_apply (v : FVec Ideal S512 .f32) (y : S512x1.Idx) (p : Fin 512) (hp : p.val = (y 0).val) :
    shapeCast S512x1 v shapeCasts_S512_S512x1 y = v (ix1 p) := by
  refine shapeCast_apply v shapeCasts_S512_S512x1 y (ix1 p) ?_
  rw [Shape.rowMajor_val_one, Shape.rowMajor_val_two]
  have h1 : (y 1).val < 1 := (y 1).isLt
  show p.val = (y 0).val * 1 + (y 1).val
  omega

/-- The first output's value at an index of its [512, 1] block: the sum of the input block's row. -/
theorem pay2_apply (x0 : Vec Ideal S512x3136 .f32) (y : S512x1.Idx) (p : Fin 512) (hp : p.val = (y 0).val) :
    k0_pay2 x0 y = ∑ l : Fin 3136, x0 (ix2 p l) := by
  unfold k0_pay2 k0_pay1
  simp only [shapeCast_self]
  exact (column_apply _ y p hp).trans (laneSum x0 p)

/-- The second output's: the sum of the squares of the input block's row. -/
theorem pay3_apply (x0 : Vec Ideal S512x3136 .f32) (y : S512x1.Idx) (p : Fin 512) (hp : p.val = (y 0).val) :
    k0_pay3 x0 y = ∑ l : Fin 3136, x0 (ix2 p l) * x0 (ix2 p l) := by
  unfold k0_pay3 k0_pay1
  simp only [shapeCast_self]
  exact (column_apply _ y p hp).trans (laneSum (mulf x0 x0) p)

/-- At grid point `t` every window is at block (t, 0): decided over the 32 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input's block at point `t` is rows 512 t … 512 t + 511 of the [16384, 3136] array. -/
theorem blk0_apply (c : Dev nD) (t : Fin cfg0.N) (y : S512x3136.Idx) (k : S16384x3136.Idx)
    (hk0 : (k 0).val = t.val * 512 + (y 0).val) (hk1 : (k 1).val = (y 1).val) :
    (iblk0 V c 0 t : Vec Ideal S512x3136 .f32) y = (V c main_v18 : S16384x3136.Idx → Elt Ideal .f32) k := by
  obtain ⟨e0, e1, -⟩ := idx_facts t
  unfold iblk0
  rw [View.read_apply]
  show V c main_v18 _ = V c main_v18 _
  congr 1
  funext a
  apply Fin.ext
  match a with
  | ⟨0, _⟩ => show win0_0.index t 0 * 512 + 1 * (y 0).val = (k 0).val; rw [e0, hk0]; omega
  | ⟨1, _⟩ => show win0_0.index t 1 * 3136 + 1 * (y 1).val = (k 1).val; rw [e1, hk1]; omega

/-- What point `t` writes back to the first output is block `t` of the row sums of the array the region finds. -/
theorem flushed1_eq (c : Dev nD) (t : Fin cfg0.N) :
    (dat0 V c).flushed 1 t = ((cfg0.win 1).blk t).view.read (Elt Ideal) (Cert.GN.rowSum (V c main_v18)) := by
  show (cfg0.win 1).cut (grid0.coords t) ((dat0 V c).after 1 t) = _
  rw [after0_1]
  unfold out0_1
  rw [View.canon_unit_zero hz]
  simp only [View.ld_unit_zero (S := S512x3136) hz]
  obtain ⟨-, -, e2, e3, -⟩ := idx_facts t
  funext j
  have hj0 : (j 0).val < 512 := (j 0).isLt
  have hk0 : ((((cfg0.win 1).blk t).view.emb j) 0).val = t.val * 512 + (j 0).val := by
    show win0_1.index t 0 * 512 + 1 * (j 0).val = _; rw [e2]; omega
  refine (pay2_apply (iblk0 V c 0 t) j ⟨(j 0).val, hj0⟩ rfl).trans ?_
  show _ = Cert.GN.rowSum (V c main_v18) (((cfg0.win 1).blk t).view.emb j)
  unfold Cert.GN.rowSum
  exact Finset.sum_congr rfl fun l _ => blk0_apply V c t _ _ hk0 rfl

/-- What point `t` writes back to the second output is block `t` of the row sums of squares. -/
theorem flushed2_eq (c : Dev nD) (t : Fin cfg0.N) :
    (dat0 V c).flushed 2 t = ((cfg0.win 2).blk t).view.read (Elt Ideal) (Cert.GN.rowSq (V c main_v18)) := by
  show (cfg0.win 2).cut (grid0.coords t) ((dat0 V c).after 2 t) = _
  rw [after0_2]
  unfold out0_2
  rw [View.canon_unit_zero hz]
  simp only [View.ld_unit_zero (S := S512x3136) hz]
  obtain ⟨-, -, -, -, e4, e5⟩ := idx_facts t
  funext j
  have hj0 : (j 0).val < 512 := (j 0).isLt
  have hk0 : ((((cfg0.win 2).blk t).view.emb j) 0).val = t.val * 512 + (j 0).val := by
    show win0_2.index t 0 * 512 + 1 * (j 0).val = _; rw [e4]; omega
  refine (pay3_apply (iblk0 V c 0 t) j ⟨(j 0).val, hj0⟩ rfl).trans ?_
  show _ = Cert.GN.rowSq (V c main_v18) (((cfg0.win 2).blk t).view.emb j)
  unfold Cert.GN.rowSq
  exact Finset.sum_congr rfl fun l _ =>
    congrArg₂ (· * ·) (blk0_apply V c t _ _ hk0 rfl) (blk0_apply V c t _ _ hk0 rfl)

/-- An index of the first output is in point `t`'s block iff each coordinate is in the block's range on its axis. -/
theorem mem_blk1 (t : Fin cfg0.N) (i : S16384x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v19_0).slice (win0_1.rect t)).set ↔ _
  rw [View.set_slice_whole, Rect.mem_set_unit]
  exact Iff.rfl

/-- Likewise for the second output. -/
theorem mem_blk2 (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v19_1).slice (win0_2.rect t)).set ↔ _
  rw [View.set_slice_whole, Rect.mem_set_unit]
  exact Iff.rfl

/-- Row `r` of the first output is in the block of point `r / 512`: the 32 blocks cover the column. -/
theorem cover1 (i : S16384x1.Idx) :
    ∃ t : Fin cfg0.N, (cfg0.win 1).flush t = true ∧ i ∈ ((cfg0.win 1).blk t).view.set := by
  have hi0 : (i 0).val < 16384 := (i 0).isLt
  have hi1 : (i 1).val < 1 := (i 1).isLt
  have hN : cfg0.N = 32 := N_0
  have ht : (i 0).val / 512 < cfg0.N := by rw [hN]; omega
  obtain ⟨-, -, e2, e3, -⟩ := idx_facts ⟨(i 0).val / 512, ht⟩
  refine ⟨⟨(i 0).val / 512, ht⟩, flush0_1 _, ?_⟩
  rw [mem_blk1]
  intro a
  match a with
  | ⟨0, _⟩ =>
    show win0_1.index ⟨(i 0).val / 512, ht⟩ 0 * 512 ≤ (i 0).val ∧ (i 0).val < win0_1.index ⟨(i 0).val / 512, ht⟩ 0 * 512 + 512
    rw [e2]; show (i 0).val / 512 * 512 ≤ (i 0).val ∧ (i 0).val < (i 0).val / 512 * 512 + 512; omega
  | ⟨1, _⟩ =>
    show win0_1.index ⟨(i 0).val / 512, ht⟩ 1 * 1 ≤ (i 1).val ∧ (i 1).val < win0_1.index ⟨(i 0).val / 512, ht⟩ 1 * 1 + 1
    rw [e3]; omega

/-- Likewise for the second output. -/
theorem cover2 (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 32 := N_0
  have ht : (i 0).val / 512 < cfg0.N := by rw [hN]; omega
  obtain ⟨-, -, -, -, e4, e5⟩ := idx_facts ⟨(i 0).val / 512, ht⟩
  refine ⟨⟨(i 0).val / 512, ht⟩, flush0_2 _, ?_⟩
  rw [mem_blk2]
  intro a
  match a with
  | ⟨0, _⟩ =>
    show win0_2.index ⟨(i 0).val / 512, ht⟩ 0 * 512 ≤ (i 0).val ∧ (i 0).val < win0_2.index ⟨(i 0).val / 512, ht⟩ 0 * 512 + 512
    rw [e4]; show (i 0).val / 512 * 512 ≤ (i 0).val ∧ (i 0).val < (i 0).val / 512 * 512 + 512; omega
  | ⟨1, _⟩ =>
    show win0_2.index ⟨(i 0).val / 512, ht⟩ 1 * 1 ≤ (i 1).val ∧ (i 1).val < win0_2.index ⟨(i 0).val / 512, ht⟩ 1 * 1 + 1
    rw [e5]; omega

/-- THE FIRST REGION'S FIRST RESULT after its write-backs: the row sums of the array the region is entered with. -/
theorem final1 (c : Dev nD) : (dat0 V c).arrAt 1 cfg0.N = Cert.GN.rowSum (V c main_v18) :=
  (dat0 V c).arrAt_eq_of_cover 1 _ (fun t _ => flushed1_eq V c t) cover1

/-- ITS SECOND RESULT: the row sums of squares. -/
theorem final2 (c : Dev nD) : (dat0 V c).arrAt 2 cfg0.N = Cert.GN.rowSq (V c main_v18) :=
  (dat0 V c).arrAt_eq_of_cover 2 _ (fun t _ => flushed2_eq V c t) cover2

end Cert.KernelIdeal.StatsArray

end
-- ==== Proof.KerOut.lean ====
/-
  What the kernel program's result buffer holds at the end, as one function of the four arguments: the host
  operations before the first region compute the channel -> group map and reshape x to [16384, 3136]; the first region
  leaves the per-row sums and sums of squares; the host operations between the regions compute the group statistics
  (the variance clamped at zero) and the folded per-row scale and shift; the second region leaves
  x * scale + shift, row by row; the last host operation reshapes it to [64, 256, 56, 56].
-/
import proofs.«117900_j4363686773082_2_alg».proof.Proof.Gen.KernelIdeal.Frame
import proofs.«117900_j4363686773082_2_alg».proof.Proof.Spec
import proofs.«117900_j4363686773082_2_alg».proof.Proof.NormArray
import proofs.«117900_j4363686773082_2_alg».proof.Proof.StatsArray
import Idealize.ShloMosaic.Lib.StableHlo.Run

noncomputable section

namespace Cert.KernelIdeal.KerOut

open Cert.KernelIdeal Cert.KernelIdeal.Gen Idealize.ShloMosaic Idealize.ShloMosaic.TcCoe Idealize.SL.Sem
open Idealize.ShloMosaic.Pipeline (Dat)
open Idealize.ShloMosaic.StableHlo (after)

/-! ## The host operations before the first region, from any contents `X` -/

/-- The buffers after the eight stretches of host operations that come before the reshape of `x`. -/
def pre (X : Valuation τ sig (Elt Ideal)) : Valuation τ sig (Elt Ideal) :=
  after hostOps0_7 (after hostOps0_6 (after hostOps0_5 (after hostOps0_4 (after hostOps0_3 (after hostOps0_2
    (after hostOps0_1 (after hostOps0 X)))))))

-- the operations' own bodies stay folded while the chain of results is computed
attribute [local irreducible] Host.reduce Host.gather Host.scatter Host.scatterAdd Host.reduceWindow Host.divf Host.sqrt concatenate extractStridedSlice transpose broadcastInDim shapeCast iotaInDim in
set_option maxRecDepth 8192 in
set_option maxHeartbeats 1000000 in
/-- They compute the channel -> group map from the group sizes: each operation's result decides whether the buffer read
    is the one it writes, down to the group sizes. -/
theorem pre_gid (X : Valuation τ sig (Elt Ideal)) :
    pre X (Proc.devRef .tc main_v17) = Cert.GN.gid (X (Proc.devRef .tc main_arg3)) := by
  simp only [pre, hostOps0, hostOps0_1, hostOps0_2, hostOps0_3, hostOps0_4, hostOps0_5, hostOps0_6, hostOps0_7,
    StableHlo.after_cons, StableHlo.after_nil]
  rfl

/-- They write none of the four arguments. -/
theorem pre_arg0 (X : Valuation τ sig (Elt Ideal)) : pre X (Proc.devRef .tc main_arg0) = X (Proc.devRef .tc main_arg0) := by
  simp only [pre, hostOps0, hostOps0_1, hostOps0_2, hostOps0_3, hostOps0_4, hostOps0_5, hostOps0_6, hostOps0_7]
  after_results_simp
theorem pre_arg1 (X : Valuation τ sig (Elt Ideal)) : pre X (Proc.devRef .tc main_arg1) = X (Proc.devRef .tc main_arg1) := by
  simp only [pre, hostOps0, hostOps0_1, hostOps0_2, hostOps0_3, hostOps0_4, hostOps0_5, hostOps0_6, hostOps0_7]
  after_results_simp
theorem pre_arg2 (X : Valuation τ sig (Elt Ideal)) : pre X (Proc.devRef .tc main_arg2) = X (Proc.devRef .tc main_arg2) := by
  simp only [pre, hostOps0, hostOps0_1, hostOps0_2, hostOps0_3, hostOps0_4, hostOps0_5, hostOps0_6, hostOps0_7]
  after_results_simp
theorem pre_arg3 (X : Valuation τ sig (Elt Ideal)) : pre X (Proc.devRef .tc main_arg3) = X (Proc.devRef .tc main_arg3) := by
  simp only [pre, hostOps0, hostOps0_1, hostOps0_2, hostOps0_3, hostOps0_4, hostOps0_5, hostOps0_6, hostOps0_7]
  after_results_simp

/-! ## The host operations between the regions, from any contents `X` -/

/-- The per-row scale column from the channel -> group map, the two columns of row statistics, the weight and the
    group sizes. -/
def scaleOf (g : IVec S256 32) (r0 r1 : FVec Ideal S16384x1 .f32) (w : FVec Ideal S256 .f32) (gs : IVec S8 32) :
    FVec Ideal S16384x1 .f32 :=
  let c : FVec Ideal S8x64 .f32 := Cert.GN.cnt gs
  let s := Cert.GN.seg g (shapeCast S64x256 r0 (by decide))
  let q := Cert.GN.seg g (shapeCast S64x256 r1 (by decide))
  shapeCast S16384x1 (Cert.GN.kerScale w (Cert.GN.perCh g (Cert.GN.ivar (Cert.GN.clampVar (Cert.GN.vari q s c))))) (by decide)

/-- The per-row shift column, likewise, with the bias. -/
def shiftOf (g : IVec S256 32) (r0 r1 : FVec Ideal S16384x1 .f32) (w b : FVec Ideal S256 .f32) (gs : IVec S8 32) :
    FVec Ideal S16384x1 .f32 :=
  let c : FVec Ideal S8x64 .f32 := Cert.GN.cnt gs
  let s := Cert.GN.seg g (shapeCast S64x256 r0 (by decide))
  let q := Cert.GN.seg g (shapeCast S64x256 r1 (by decide))
  shapeCast S16384x1 (Cert.GN.kerShift w b (Cert.GN.perCh g (Cert.GN.mean s c))
    (Cert.GN.perCh g (Cert.GN.ivar (Cert.GN.clampVar (Cert.GN.vari q s c))))) (by decide)

attribute [local irreducible] Host.reduce Host.gather Host.scatter Host.scatterAdd Host.reduceWindow Host.divf Host.sqrt concatenate extractStridedSlice transpose broadcastInDim shapeCast iotaInDim in
set_option maxRecDepth 8192 in
set_option maxHeartbeats 1000000 in
theorem mid_scale (X : Valuation τ sig (Elt Ideal)) :
    after hostOps1 X (Proc.devRef .tc main_v70)
      = scaleOf (X (Proc.devRef .tc main_v17)) (X (Proc.devRef .tc main_v19_0)) (X (Proc.devRef .tc main_v19_1))
          (X (Proc.devRef .tc main_arg1)) (X (Proc.devRef .tc main_arg3)) := by
  simp only [hostOps1]
  after_results_simp
  rfl

attribute [local irreducible] Host.reduce Host.gather Host.scatter Host.scatterAdd Host.reduceWindow Host.divf Host.sqrt concatenate extractStridedSlice transpose broadcastInDim shapeCast iotaInDim in
set_option maxRecDepth 8192 in
set_option maxHeartbeats 1000000 in
theorem mid_shift (X : Valuation τ sig (Elt Ideal)) :
    after hostOps1 X (Proc.devRef .tc main_v71)
      = shiftOf (X (Proc.devRef .tc main_v17)) (X (Proc.devRef .tc main_v19_0)) (X (Proc.devRef .tc main_v19_1))
          (X (Proc.devRef .tc main_arg1)) (X (Proc.devRef .tc main_arg2)) (X (Proc.devRef .tc main_arg3)) := by
  simp only [hostOps1]
  after_results_simp
  rfl

/-- They do not write the reshaped input. -/
theorem mid_x (X : Valuation τ sig (Elt Ideal)) :
    after hostOps1 X (Proc.devRef .tc main_v18) = X (Proc.devRef .tc main_v18) := by
  simp only [hostOps1]
  after_results_simp

/-! ## Read through the fold from the launch memory -/

variable (m : (ℓ : Loc nD τ sig) → Buf (Elt Ideal) ℓ) (ρ : Dev nD → PrngReg)

/-- When the first region is entered its input array is `x` as [16384, 3136]. -/
theorem W9_x (c : Dev nD) :
    W9 m ρ c (Proc.devRef .tc main_v18) = Cert.GN.x2 (F := Ideal) (m ((c : Thread nD τ).loc main_arg0)) := by
  show after hostOps0_8 (pre (W0 m ρ c)) (Proc.devRef .tc main_v18) = _
  after_results
  rw [pre_arg0]
  rfl

/-- … and the channel -> group map is in place, -/
theorem W9_gid (c : Dev nD) :
    W9 m ρ c (Proc.devRef .tc main_v17) = Cert.GN.gid (m ((c : Thread nD τ).loc main_arg3)) := by
  show after hostOps0_8 (pre (W0 m ρ c)) (Proc.devRef .tc main_v17) = _
  after_results
  exact pre_gid (W0 m ρ c)

/-- … the arguments as launched. -/
theorem W9_arg1 (c : Dev nD) : W9 m ρ c (Proc.devRef .tc main_arg1) = m ((c : Thread nD τ).loc main_arg1) := by
  show after hostOps0_8 (pre (W0 m ρ c)) (Proc.devRef .tc main_arg1) = _
  after_results
  exact pre_arg1 (W0 m ρ c)
theorem W9_arg2 (c : Dev nD) : W9 m ρ c (Proc.devRef .tc main_arg2) = m ((c : Thread nD τ).loc main_arg2) := by
  show after hostOps0_8 (pre (W0 m ρ c)) (Proc.devRef .tc main_arg2) = _
  after_results
  exact pre_arg2 (W0 m ρ c)
theorem W9_arg3 (c : Dev nD) : W9 m ρ c (Proc.devRef .tc main_arg3) = m ((c : Thread nD τ).loc main_arg3) := by
  show after hostOps0_8 (pre (W0 m ρ c)) (Proc.devRef .tc main_arg3) = _
  after_results
  exact pre_arg3 (W0 m ρ c)

/-- The first region reads its input array and leaves it as it was. -/
theorem W10_x (c : Dev nD) :
    W10 m ρ c (Proc.devRef .tc main_v18) = Cert.GN.x2 (F := Ideal) (m ((c : Thread nD τ).loc main_arg0)) :=
  (W10_arr m ρ c 0).trans (((dat0 (V9 m ρ) c).arrAt_in 0 rfl cfg0.N).trans ((A_eq0 (V9 m ρ) c 0).trans (W9_x m ρ c)))

/-- It leaves the row sums in its first result, -/
theorem W10_sum (c : Dev nD) :
    W10 m ρ c (Proc.devRef .tc main_v19_0) = Cert.GN.rowSum (Cert.GN.x2 (F := Ideal) (m ((c : Thread nD τ).loc main_arg0))) :=
  (W10_arr m ρ c 1).trans ((StatsArray.final1 (V9 m ρ) c).trans (congrArg Cert.GN.rowSum (W9_x m ρ c)))

/-- … and the row sums of squares in its second. -/
theorem W10_sq (c : Dev nD) :
    W10 m ρ c (Proc.devRef .tc main_v19_1) = Cert.GN.rowSq (Cert.GN.x2 (F := Ideal) (m ((c : Thread nD τ).loc main_arg0))) :=
  (W10_arr m ρ c 2).trans ((StatsArray.final2 (V9 m ρ) c).trans (congrArg Cert.GN.rowSq (W9_x m ρ c)))

/-- It touches nothing else. -/
theorem W10_gid (c : Dev nD) :
    W10 m ρ c (Proc.devRef .tc main_v17) = Cert.GN.gid (m ((c : Thread nD τ).loc main_arg3)) :=
  (W10_of_ne m ρ c main_v17 (by decide)).trans (W9_gid m ρ c)
theorem W10_arg1 (c : Dev nD) : W10 m ρ c (Proc.devRef .tc main_arg1) = m ((c : Thread nD τ).loc main_arg1) :=
  (W10_of_ne m ρ c main_arg1 (by decide)).trans (W9_arg1 m ρ c)
theorem W10_arg2 (c : Dev nD) : W10 m ρ c (Proc.devRef .tc main_arg2) = m ((c : Thread nD τ).loc main_arg2) :=
  (W10_of_ne m ρ c main_arg2 (by decide)).trans (W9_arg2 m ρ c)
theorem W10_arg3 (c : Dev nD) : W10 m ρ c (Proc.devRef .tc main_arg3) = m ((c : Thread nD τ).loc main_arg3) :=
  (W10_of_ne m ρ c main_arg3 (by decide)).trans (W9_arg3 m ρ c)

/-- What the second region is entered with: the input array, -/
theorem V11_x (c : Dev nD) : V11 m ρ c main_v18 = Cert.GN.x2 (F := Ideal) (m ((c : Thread nD τ).loc main_arg0)) :=
  (mid_x (W10 m ρ c)).trans (W10_x m ρ c)

/-- … the scale column, -/
theorem V11_scale (c : Dev nD) :
    V11 m ρ c main_v70 = scaleOf (Cert.GN.gid (m ((c : Thread nD τ).loc main_arg3)))
      (Cert.GN.rowSum (Cert.GN.x2 (F := Ideal) (m ((c : Thread nD τ).loc main_arg0)))) (Cert.GN.rowSq (Cert.GN.x2 (F := Ideal) (m ((c : Thread nD τ).loc main_arg0))))
      (m ((c : Thread nD τ).loc main_arg1)) (m ((c : Thread nD τ).loc main_arg3)) := by
  refine (mid_scale (W10 m ρ c)).trans ?_
  rw [W10_gid, W10_sum, W10_sq, W10_arg1, W10_arg3]

/-- … and the shift column. -/
theorem V11_shift (c : Dev nD) :
    V11 m ρ c main_v71 = shiftOf (Cert.GN.gid (m ((c : Thread nD τ).loc main_arg3)))
      (Cert.GN.rowSum (Cert.GN.x2 (F := Ideal) (m ((c : Thread nD τ).loc main_arg0)))) (Cert.GN.rowSq (Cert.GN.x2 (F := Ideal) (m ((c : Thread nD τ).loc main_arg0))))
      (m ((c : Thread nD τ).loc main_arg1)) (m ((c : Thread nD τ).loc main_arg2)) (m ((c : Thread nD τ).loc main_arg3)) := by
  refine (mid_shift (W10 m ρ c)).trans ?_
  rw [W10_gid, W10_sum, W10_sq, W10_arg1, W10_arg2, W10_arg3]

/-- The last boundary's contents at the result buffer: the second region's result array recast to [64, 256, 56, 56]. -/
theorem W13_out (c : Dev nD) :
    W13 m ρ c (Proc.devRef .tc main_v73)
      = shapeCast S64x256x56x56 (W12 m ρ c (Proc.devRef .tc main_v72)) shapeCasts_S16384x3136_S64x256x56x56 := by
  show after hostOps2 (W12 m ρ c) (Proc.devRef .tc main_v73) = _
  after_results
  rfl

/-- The second region's result array: each element of its input times its row's scale plus its row's shift. -/
theorem W12_out (c : Dev nD) :
    W12 m ρ c (Proc.devRef .tc main_v72)
      = Cert.GN.affine (V11 m ρ c main_v18) (V11 m ρ c main_v70) (V11 m ρ c main_v71) :=
  (W12_arr m ρ c 3).trans (NormArray.final (V11 m ρ) c)

/-- THE PROGRAM'S RESULT, read through the fold of every host stretch and both regions' write-backs from the launch
    memory, is the kernel's function of the four argument arrays. -/
theorem out_eq (c : Dev nD) :
    W13 m ρ c (Proc.devRef .tc main_v73)
      = Cert.GN.kerOut (m ((c : Thread nD τ).loc main_arg0)) (m ((c : Thread nD τ).loc main_arg1))
          (m ((c : Thread nD τ).loc main_arg2)) (m ((c : Thread nD τ).loc main_arg3)) := by
  rw [W13_out, W12_out, V11_x, V11_scale, V11_shift]
  rfl

end Cert.KernelIdeal.KerOut

end
-- ==== Proof.RefRun.lean ====
/- The reference program's @main as a LIST of its 119 host operations, the functions it calls unfolded at their
   call sites over each call's own buffers, and its run read back: every weakly fair execution terminates with each
   TensorCore buffer at the fold of the operations' results over the launch contents. -/
import proofs.«117900_j4363686773082_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations, in program order: the group index of each channel (an iota, the cyclic shift of the
    group sizes, its first entry cleared, the running sum, the scatter of ones at the group starts, the running sum
    again, minus one, clamped by the take), the per-channel sums of the input and of its square, their sums over each
    group, the mean, the variance, its inverse square root, the two gathers back to channels, and the normalization. -/
abbrev ops : List (HloOp τ sig (Elt F)) :=
  [ StableHlo.nullary main_v0 (iotaInDim S8 32 0),
    StableHlo.TRef.unary (.of main_arg3 : StableHlo.TRef sig ⟨S8, .i32⟩) (.of main_call0_v0 : StableHlo.TRef sig ⟨S1, .i32⟩) (extractStridedSlice S1 ![7] · slices_S8_S1_7),
    StableHlo.TRef.unary (.of main_arg3 : StableHlo.TRef sig ⟨S8, .i32⟩) (.of main_call0_v1 : StableHlo.TRef sig ⟨S7, .i32⟩) (extractStridedSlice S7 ![0] · slices_S8_S7_0),
    StableHlo.TRef.binary (.of main_call0_v0 : StableHlo.TRef sig ⟨S1, .i32⟩) (.of main_call0_v1 : StableHlo.TRef sig ⟨S7, .i32⟩) (.of main_v1 : StableHlo.TRef sig ⟨S8, .i32⟩) (fun a b => concatenate S8 0 [⟨S1, a⟩, ⟨S7, b⟩] concatenates_S1_S7_S8_d0),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v3 : StableHlo.TRef sig ⟨S8, .i32⟩) (.of main_call1_call0_v0 : StableHlo.TRef sig ⟨S_, .i32⟩) (.of main_v4 : StableHlo.TRef sig ⟨S8, .i32⟩) (fun x v => Host.reduceWindow IntOp.addi ![8] ![1] ![7] ![0] x v reduceWindows_S8_S8_w8s1p7_0 h_S_),
    StableHlo.nullary main_c_1 (constantI S_ 32 0#32),
    StableHlo.unary main_c_1 main_v5 (broadcastInDim S256 ![] bcast_S_S256 : (⟨S_, .i32⟩ : BufTy).Contents (Elt F) → (⟨S256, .i32⟩ : BufTy).Contents (Elt F)),
    StableHlo.nullary main_c_2 (constantI S_ 32 0#32),
    StableHlo.unary main_c_2 main_v6 (broadcastInDim S8 ![] bcast_S_S8 : (⟨S_, .i32⟩ : BufTy).Contents (Elt F) → (⟨S8, .i32⟩ : BufTy).Contents (Elt F)),
    StableHlo.binary main_v4 main_v6 main_v7 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 256#32),
    StableHlo.unary main_c_3 main_v8 (broadcastInDim S8 ![] bcast_S_S8 : (⟨S_, .i32⟩ : BufTy).Contents (Elt F) → (⟨S8, .i32⟩ : BufTy).Contents (Elt F)),
    StableHlo.binary main_v4 main_v8 main_v9 (addi : (⟨S8, .i32⟩ : BufTy).Contents (Elt F) → (⟨S8, .i32⟩ : BufTy).Contents (Elt F) → (⟨S8, .i32⟩ : BufTy).Contents (Elt F)),
    StableHlo.ternary main_v7 main_v9 main_v4 main_v10 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v10 main_v11 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v12 (broadcastInDim S8 ![] bcast_S_S8 : (⟨S_, .i32⟩ : BufTy).Contents (Elt F) → (⟨S8, .i32⟩ : BufTy).Contents (Elt F)),
    StableHlo.ternary main_v5 main_v11 main_v12 main_v13 ((fun x i u => Host.scatter scatter_S256_S8x1_S8_n_0_0_1 IntOp.addi x i u) : (⟨S256, .i32⟩ : BufTy).Contents (Elt F) → (⟨S8x1, .i32⟩ : BufTy).Contents (Elt F) → (⟨S8, .i32⟩ : BufTy).Contents (Elt F) → (⟨S256, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v13 : StableHlo.TRef sig ⟨S256, .i32⟩) (.of main_call2_call0_v0 : StableHlo.TRef sig ⟨S_, .i32⟩) (.of main_v14 : StableHlo.TRef sig ⟨S256, .i32⟩) (fun x v => Host.reduceWindow IntOp.addi ![256] ![1] ![255] ![0] x v reduceWindows_S256_S256_w256s1p255_0 h_S_),
    StableHlo.nullary main_c_5 (constantI S_ 32 1#32),
    StableHlo.unary main_c_5 main_v15 (broadcastInDim S256 ![] bcast_S_S256 : (⟨S_, .i32⟩ : BufTy).Contents (Elt F) → (⟨S256, .i32⟩ : BufTy).Contents (Elt F)),
    StableHlo.binary main_v14 main_v15 main_v16 (subi : (⟨S256, .i32⟩ : BufTy).Contents (Elt F) → (⟨S256, .i32⟩ : BufTy).Contents (Elt F) → (⟨S256, .i32⟩ : BufTy).Contents (Elt F)),
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S256, .i32⟩) (broadcastInDim S256 ![] bcast_S_S256),
    StableHlo.TRef.binary (.of main_v16 : StableHlo.TRef sig ⟨S256, .i32⟩) (.of main_call3_v0 : StableHlo.TRef sig ⟨S256, .i32⟩) (.of main_call3_v1 : StableHlo.TRef sig ⟨S256, .i1⟩) (cmpi .slt),
    StableHlo.TRef.nullary (.of main_call3_c_0 : StableHlo.TRef sig ⟨S_, .i32⟩) (constantI S_ 32 8#32),
    StableHlo.TRef.unary (.of main_call3_c_0 : StableHlo.TRef sig ⟨S_, .i32⟩) (.of main_call3_v2 : StableHlo.TRef sig ⟨S256, .i32⟩) (broadcastInDim S256 ![] bcast_S_S256),
    StableHlo.TRef.binary (.of main_v16 : StableHlo.TRef sig ⟨S256, .i32⟩) (.of main_call3_v2 : StableHlo.TRef sig ⟨S256, .i32⟩) (.of main_call3_v3 : StableHlo.TRef sig ⟨S256, .i32⟩) addi,
    StableHlo.TRef.ternary (.of main_call3_v1 : StableHlo.TRef sig ⟨S256, .i1⟩) (.of main_call3_v3 : StableHlo.TRef sig ⟨S256, .i32⟩) (.of main_v16 : StableHlo.TRef sig ⟨S256, .i32⟩) (.of main_call3_v4 : StableHlo.TRef sig ⟨S256, .i32⟩) select,
    StableHlo.TRef.unary main_call3_call0.v0 (.of main_call3_v5 : StableHlo.TRef sig ⟨S256x1, .i32⟩) (broadcastInDim S256x1 ![0] bcast_S256_S256x1_0),
    StableHlo.TRef.nullary (.of main_call3_c_1 : StableHlo.TRef sig ⟨S1, .i32⟩) (constantI S1 32 7#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S256x1, .i32⟩) (broadcastInDim S256x1 ![] bcast_S_S256x1),
    StableHlo.TRef.binary (.of main_call3_v5 : StableHlo.TRef sig ⟨S256x1, .i32⟩) (.of main_call3_v6 : StableHlo.TRef sig ⟨S256x1, .i32⟩) (.of main_call3_v7 : StableHlo.TRef sig ⟨S256x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S256x1, .i32⟩) (broadcastInDim S256x1 ![0, 1] bcast_S1x1_S256x1_0_1),
    StableHlo.TRef.binary (.of main_call3_v5 : StableHlo.TRef sig ⟨S256x1, .i32⟩) (.of main_call3_v9 : StableHlo.TRef sig ⟨S256x1, .i32⟩) (.of main_call3_v10 : StableHlo.TRef sig ⟨S256x1, .i1⟩) (cmpi .sle),
    StableHlo.TRef.binary (.of main_call3_v7 : StableHlo.TRef sig ⟨S256x1, .i1⟩) (.of main_call3_v10 : StableHlo.TRef sig ⟨S256x1, .i1⟩) (.of main_call3_v11 : StableHlo.TRef sig ⟨S256x1, .i1⟩) andi,
    StableHlo.TRef.nullary (.of main_call3_c_3 : StableHlo.TRef sig ⟨S_, .i1⟩) (constantI S_ 1 1#1),
    StableHlo.TRef.binary (.of main_call3_v11 : StableHlo.TRef sig ⟨S256x1, .i1⟩) (.of main_call3_c_3 : StableHlo.TRef sig ⟨S_, .i1⟩) (.of main_call3_v12 : StableHlo.TRef sig ⟨S256, .i1⟩) (fun x v => Host.reduce IntOp.andi x v reducesTo_S256x1_S256_d1 h_S_),
    StableHlo.TRef.binary (.of main_v0 : StableHlo.TRef sig ⟨S8, .i32⟩) (.of main_call3_v5 : StableHlo.TRef sig ⟨S256x1, .i32⟩) (.of main_call3_v13 : StableHlo.TRef sig ⟨S256, .i32⟩) (fun x i => Host.gather gather_S8_S256x1_S256_n_0_n_n_0_1_1 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S256, .i32⟩) (broadcastInDim S256 ![] bcast_S_S256),
    StableHlo.TRef.ternary (.of main_call3_v12 : StableHlo.TRef sig ⟨S256, .i1⟩) (.of main_call3_v13 : StableHlo.TRef sig ⟨S256, .i32⟩) (.of main_call3_v14 : StableHlo.TRef sig ⟨S256, .i32⟩) (.of main_v17 : StableHlo.TRef sig ⟨S256, .i32⟩) select,
    StableHlo.reshape main_arg0 main_v18 rfl shapeCasts_S64x256x56x56_S64x256x3136,
    StableHlo.nullary main_cst (constant S_ .f32 0x00000000#32),
    StableHlo.binary main_v18 main_cst main_v19 ((fun x v => Host.reduceAdd x v reducesTo_S64x256x3136_S64x256_d2 h_S_) : (⟨S64x256x3136, .f32⟩ : BufTy).Contents (Elt F) → (⟨S_, .f32⟩ : BufTy).Contents (Elt F) → (⟨S64x256, .f32⟩ : BufTy).Contents (Elt F)),
    StableHlo.binary main_v18 main_v18 main_v20 (mulf : (⟨S64x256x3136, .f32⟩ : BufTy).Contents (Elt F) → (⟨S64x256x3136, .f32⟩ : BufTy).Contents (Elt F) → (⟨S64x256x3136, .f32⟩ : BufTy).Contents (Elt F)),
    StableHlo.nullary main_cst_6 (constant S_ .f32 0x00000000#32),
    StableHlo.binary main_v20 main_cst_6 main_v21 ((fun x v => Host.reduceAdd x v reducesTo_S64x256x3136_S64x256_d2 h_S_) : (⟨S64x256x3136, .f32⟩ : BufTy).Contents (Elt F) → (⟨S_, .f32⟩ : BufTy).Contents (Elt F) → (⟨S64x256, .f32⟩ : BufTy).Contents (Elt F)),
    StableHlo.unary main_v19 main_v22 ((transpose S256x64 [1, 0] · transposes_S64x256_S256x64_1_0) : (⟨S64x256, .f32⟩ : BufTy).Contents (Elt F) → (⟨S256x64, .f32⟩ : BufTy).Contents (Elt F)),
    StableHlo.nullary main_cst_7 (constant S_ .f32 0x00000000#32),
    StableHlo.unary main_cst_7 main_v23 (broadcastInDim S8x64 ![] bcast_S_S8x64 : (⟨S_, .f32⟩ : BufTy).Contents (Elt F) → (⟨S8x64, .f32⟩ : BufTy).Contents (Elt F)),
    StableHlo.unary main_v17 main_v24 (broadcastInDim S256x1 ![0] bcast_S256_S256x1_0 : (⟨S256, .i32⟩ : BufTy).Contents (Elt F) → (⟨S256x1, .i32⟩ : BufTy).Contents (Elt F)),
    StableHlo.ternary main_v23 main_v24 main_v22 main_v25 ((fun x i u => Host.scatterAdd scatter_S8x64_S256x1_S256x64_1_0_0_1 x i u) : (⟨S8x64, .f32⟩ : BufTy).Contents (Elt F) → (⟨S256x1, .i32⟩ : BufTy).Contents (Elt F) → (⟨S256x64, .f32⟩ : BufTy).Contents (Elt F) → (⟨S8x64, .f32⟩ : BufTy).Contents (Elt F)),
    StableHlo.unary main_v21 main_v26 ((transpose S256x64 [1, 0] · transposes_S64x256_S256x64_1_0) : (⟨S64x256, .f32⟩ : BufTy).Contents (Elt F) → (⟨S256x64, .f32⟩ : BufTy).Contents (Elt F)),
    StableHlo.nullary main_cst_8 (constant S_ .f32 0x00000000#32),
    StableHlo.unary main_cst_8 main_v27 (broadcastInDim S8x64 ![] bcast_S_S8x64 : (⟨S_, .f32⟩ : BufTy).Contents (Elt F) → (⟨S8x64, .f32⟩ : BufTy).Contents (Elt F)),
    StableHlo.unary main_v17 main_v28 (broadcastInDim S256x1 ![0] bcast_S256_S256x1_0 : (⟨S256, .i32⟩ : BufTy).Contents (Elt F) → (⟨S256x1, .i32⟩ : BufTy).Contents (Elt F)),
    StableHlo.ternary main_v27 main_v28 main_v26 main_v29 ((fun x i u => Host.scatterAdd scatter_S8x64_S256x1_S256x64_1_0_0_1 x i u) : (⟨S8x64, .f32⟩ : BufTy).Contents (Elt F) → (⟨S256x1, .i32⟩ : BufTy).Contents (Elt F) → (⟨S256x64, .f32⟩ : BufTy).Contents (Elt F) → (⟨S8x64, .f32⟩ : BufTy).Contents (Elt F)),
    StableHlo.unary main_arg3 main_v30 (sitofp .f32 : (⟨S8, .i32⟩ : BufTy).Contents (Elt F) → (⟨S8, .f32⟩ : BufTy).Contents (Elt F)),
    StableHlo.nullary main_cst_9 (constant S_ .f32 0x45440000#32),
    StableHlo.unary main_cst_9 main_v31 (broadcastInDim S8 ![] bcast_S_S8 : (⟨S_, .f32⟩ : BufTy).Contents (Elt F) → (⟨S8, .f32⟩ : BufTy).Contents (Elt F)),
    StableHlo.binary main_v30 main_v31 main_v32 (mulf : (⟨S8, .f32⟩ : BufTy).Contents (Elt F) → (⟨S8, .f32⟩ : BufTy).Contents (Elt F) → (⟨S8, .f32⟩ : BufTy).Contents (Elt F)),
    StableHlo.unary main_v32 main_v33 (broadcastInDim S8x1 ![0] bcast_S8_S8x1_0 : (⟨S8, .f32⟩ : BufTy).Contents (Elt F) → (⟨S8x1, .f32⟩ : BufTy).Contents (Elt F)),
    StableHlo.unary main_v33 main_v34 (broadcastInDim S8x64 ![0, 1] bcast_S8x1_S8x64_0_1 : (⟨S8x1, .f32⟩ : BufTy).Contents (Elt F) → (⟨S8x64, .f32⟩ : BufTy).Contents (Elt F)),
    StableHlo.binary main_v25 main_v34 main_v35 (Host.divf : (⟨S8x64, .f32⟩ : BufTy).Contents (Elt F) → (⟨S8x64, .f32⟩ : BufTy).Contents (Elt F) → (⟨S8x64, .f32⟩ : BufTy).Contents (Elt F)),
    StableHlo.unary main_v33 main_v36 (broadcastInDim S8x64 ![0, 1] bcast_S8x1_S8x64_0_1 : (⟨S8x1, .f32⟩ : BufTy).Contents (Elt F) → (⟨S8x64, .f32⟩ : BufTy).Contents (Elt F)),
    StableHlo.binary main_v29 main_v36 main_v37 (Host.divf : (⟨S8x64, .f32⟩ : BufTy).Contents (Elt F) → (⟨S8x64, .f32⟩ : BufTy).Contents (Elt F) → (⟨S8x64, .f32⟩ : BufTy).Contents (Elt F)),
    StableHlo.binary main_v35 main_v35 main_v38 (mulf : (⟨S8x64, .f32⟩ : BufTy).Contents (Elt F) → (⟨S8x64, .f32⟩ : BufTy).Contents (Elt F) → (⟨S8x64, .f32⟩ : BufTy).Contents (Elt F)),
    StableHlo.binary main_v37 main_v38 main_v39 (subf : (⟨S8x64, .f32⟩ : BufTy).Contents (Elt F) → (⟨S8x64, .f32⟩ : BufTy).Contents (Elt F) → (⟨S8x64, .f32⟩ : BufTy).Contents (Elt F)),
    StableHlo.nullary main_cst_10 (constant S_ .f32 0x2B8CBCCC#32),
    StableHlo.unary main_cst_10 main_v40 (broadcastInDim S8x64 ![] bcast_S_S8x64 : (⟨S_, .f32⟩ : BufTy).Contents (Elt F) → (⟨S8x64, .f32⟩ : BufTy).Contents (Elt F)),
    StableHlo.binary main_v39 main_v40 main_v41 (addf : (⟨S8x64, .f32⟩ : BufTy).Contents (Elt F) → (⟨S8x64, .f32⟩ : BufTy).Contents (Elt F) → (⟨S8x64, .f32⟩ : BufTy).Contents (Elt F)),
    StableHlo.unary main_v41 main_v42 (Host.sqrt : (⟨S8x64, .f32⟩ : BufTy).Contents (Elt F) → (⟨S8x64, .f32⟩ : BufTy).Contents (Elt F)),
    StableHlo.nullary main_cst_11 (constant S_ .f32 0x3F800000#32),
    StableHlo.unary main_cst_11 main_v43 (broadcastInDim S8x64 ![] bcast_S_S8x64 : (⟨S_, .f32⟩ : BufTy).Contents (Elt F) → (⟨S8x64, .f32⟩ : BufTy).Contents (Elt F)),
    StableHlo.binary main_v43 main_v42 main_v44 (Host.divf : (⟨S8x64, .f32⟩ : BufTy).Contents (Elt F) → (⟨S8x64, .f32⟩ : BufTy).Contents (Elt F) → (⟨S8x64, .f32⟩ : BufTy).Contents (Elt F)),
    StableHlo.nullary main_c_12 (constantI S_ 32 0#32),
    StableHlo.unary main_c_12 main_v45 (broadcastInDim S256 ![] bcast_S_S256 : (⟨S_, .i32⟩ : BufTy).Contents (Elt F) → (⟨S256, .i32⟩ : BufTy).Contents (Elt F)),
    StableHlo.binary main_v17 main_v45 main_v46 (cmpi .slt : (⟨S256, .i32⟩ : BufTy).Contents (Elt F) → (⟨S256, .i32⟩ : BufTy).Contents (Elt F) → (⟨S256, .i1⟩ : BufTy).Contents (Elt F)),
    StableHlo.nullary main_c_13 (constantI S_ 32 8#32),
    StableHlo.unary main_c_13 main_v47 (broadcastInDim S256 ![] bcast_S_S256 : (⟨S_, .i32⟩ : BufTy).Contents (Elt F) → (⟨S256, .i32⟩ : BufTy).Contents (Elt F)),
    StableHlo.binary main_v17 main_v47 main_v48 (addi : (⟨S256, .i32⟩ : BufTy).Contents (Elt F) → (⟨S256, .i32⟩ : BufTy).Contents (Elt F) → (⟨S256, .i32⟩ : BufTy).Contents (Elt F)),
    StableHlo.ternary main_v46 main_v48 main_v17 main_v49 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v49 main_v50 (broadcastInDim S256x1 ![0] bcast_S256_S256x1_0 : (⟨S256, .i32⟩ : BufTy).Contents (Elt F) → (⟨S256x1, .i32⟩ : BufTy).Contents (Elt F)),
    StableHlo.binary main_v35 main_v50 main_v51 ((fun x i => Host.gather gather_S8x64_S256x1_S256x64_1_0_n_n_0_1_164 x i) : (⟨S8x64, .f32⟩ : BufTy).Contents (Elt F) → (⟨S256x1, .i32⟩ : BufTy).Contents (Elt F) → (⟨S256x64, .f32⟩ : BufTy).Contents (Elt F)),
    StableHlo.unary main_v51 main_v52 ((transpose S64x256 [1, 0] · transposes_S256x64_S64x256_1_0) : (⟨S256x64, .f32⟩ : BufTy).Contents (Elt F) → (⟨S64x256, .f32⟩ : BufTy).Contents (Elt F)),
    StableHlo.unary main_v52 main_v53 (broadcastInDim S64x256x1 ![0, 1] bcast_S64x256_S64x256x1_0_1 : (⟨S64x256, .f32⟩ : BufTy).Contents (Elt F) → (⟨S64x256x1, .f32⟩ : BufTy).Contents (Elt F)),
    StableHlo.nullary main_c_14 (constantI S_ 32 0#32),
    StableHlo.unary main_c_14 main_v54 (broadcastInDim S256 ![] bcast_S_S256 : (⟨S_, .i32⟩ : BufTy).Contents (Elt F) → (⟨S256, .i32⟩ : BufTy).Contents (Elt F)),
    StableHlo.binary main_v17 main_v54 main_v55 (cmpi .slt : (⟨S256, .i32⟩ : BufTy).Contents (Elt F) → (⟨S256, .i32⟩ : BufTy).Contents (Elt F) → (⟨S256, .i1⟩ : BufTy).Contents (Elt F)),
    StableHlo.nullary main_c_15 (constantI S_ 32 8#32),
    StableHlo.unary main_c_15 main_v56 (broadcastInDim S256 ![] bcast_S_S256 : (⟨S_, .i32⟩ : BufTy).Contents (Elt F) → (⟨S256, .i32⟩ : BufTy).Contents (Elt F)),
    StableHlo.binary main_v17 main_v56 main_v57 (addi : (⟨S256, .i32⟩ : BufTy).Contents (Elt F) → (⟨S256, .i32⟩ : BufTy).Contents (Elt F) → (⟨S256, .i32⟩ : BufTy).Contents (Elt F)),
    StableHlo.ternary main_v55 main_v57 main_v17 main_v58 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v58 main_v59 (broadcastInDim S256x1 ![0] bcast_S256_S256x1_0 : (⟨S256, .i32⟩ : BufTy).Contents (Elt F) → (⟨S256x1, .i32⟩ : BufTy).Contents (Elt F)),
    StableHlo.binary main_v44 main_v59 main_v60 ((fun x i => Host.gather gather_S8x64_S256x1_S256x64_1_0_n_n_0_1_164 x i) : (⟨S8x64, .f32⟩ : BufTy).Contents (Elt F) → (⟨S256x1, .i32⟩ : BufTy).Contents (Elt F) → (⟨S256x64, .f32⟩ : BufTy).Contents (Elt F)),
    StableHlo.unary main_v60 main_v61 ((transpose S64x256 [1, 0] · transposes_S256x64_S64x256_1_0) : (⟨S256x64, .f32⟩ : BufTy).Contents (Elt F) → (⟨S64x256, .f32⟩ : BufTy).Contents (Elt F)),
    StableHlo.unary main_v61 main_v62 (broadcastInDim S64x256x1 ![0, 1] bcast_S64x256_S64x256x1_0_1 : (⟨S64x256, .f32⟩ : BufTy).Contents (Elt F) → (⟨S64x256x1, .f32⟩ : BufTy).Contents (Elt F)),
    StableHlo.unary main_v53 main_v63 (broadcastInDim S64x256x3136 ![0, 1, 2] bcast_S64x256x1_S64x256x3136_0_1_2 : (⟨S64x256x1, .f32⟩ : BufTy).Contents (Elt F) → (⟨S64x256x3136, .f32⟩ : BufTy).Contents (Elt F)),
    StableHlo.binary main_v18 main_v63 main_v64 (subf : (⟨S64x256x3136, .f32⟩ : BufTy).Contents (Elt F) → (⟨S64x256x3136, .f32⟩ : BufTy).Contents (Elt F) → (⟨S64x256x3136, .f32⟩ : BufTy).Contents (Elt F)),
    StableHlo.unary main_v62 main_v65 (broadcastInDim S64x256x3136 ![0, 1, 2] bcast_S64x256x1_S64x256x3136_0_1_2 : (⟨S64x256x1, .f32⟩ : BufTy).Contents (Elt F) → (⟨S64x256x3136, .f32⟩ : BufTy).Contents (Elt F)),
    StableHlo.binary main_v64 main_v65 main_v66 (mulf : (⟨S64x256x3136, .f32⟩ : BufTy).Contents (Elt F) → (⟨S64x256x3136, .f32⟩ : BufTy).Contents (Elt F) → (⟨S64x256x3136, .f32⟩ : BufTy).Contents (Elt F)),
    StableHlo.unary main_arg1 main_v67 (broadcastInDim S1x256x1 ![1] bcast_S256_S1x256x1_1 : (⟨S256, .f32⟩ : BufTy).Contents (Elt F) → (⟨S1x256x1, .f32⟩ : BufTy).Contents (Elt F)),
    StableHlo.unary main_v67 main_v68 (broadcastInDim S64x256x3136 ![0, 1, 2] bcast_S1x256x1_S64x256x3136_0_1_2 : (⟨S1x256x1, .f32⟩ : BufTy).Contents (Elt F) → (⟨S64x256x3136, .f32⟩ : BufTy).Contents (Elt F)),
    StableHlo.binary main_v66 main_v68 main_v69 (mulf : (⟨S64x256x3136, .f32⟩ : BufTy).Contents (Elt F) → (⟨S64x256x3136, .f32⟩ : BufTy).Contents (Elt F) → (⟨S64x256x3136, .f32⟩ : BufTy).Contents (Elt F)),
    StableHlo.unary main_arg2 main_v70 (broadcastInDim S1x256x1 ![1] bcast_S256_S1x256x1_1 : (⟨S256, .f32⟩ : BufTy).Contents (Elt F) → (⟨S1x256x1, .f32⟩ : BufTy).Contents (Elt F)),
    StableHlo.unary main_v70 main_v71 (broadcastInDim S64x256x3136 ![0, 1, 2] bcast_S1x256x1_S64x256x3136_0_1_2 : (⟨S1x256x1, .f32⟩ : BufTy).Contents (Elt F) → (⟨S64x256x3136, .f32⟩ : BufTy).Contents (Elt F)),
    StableHlo.binary main_v69 main_v71 main_v72 (addf : (⟨S64x256x3136, .f32⟩ : BufTy).Contents (Elt F) → (⟨S64x256x3136, .f32⟩ : BufTy).Contents (Elt F) → (⟨S64x256x3136, .f32⟩ : BufTy).Contents (Elt F)),
    StableHlo.reshape main_v72 main_v73 rfl shapeCasts_S64x256x3136_S64x256x56x56 ]

set_option maxRecDepth 8192 in
set_option maxHeartbeats 8000000 in
/-- @main is that straight line, by computation: its two windows run in order and each called function's body runs in
    place of its call, sequencing reassociating as it is unfolded. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub ..,
    nullary_bufs_sub .., ternary_bufs_sub .., nullary_bufs_sub .., unary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., nullary_bufs_sub ..,
    binary_bufs_sub .., binary_bufs_sub .., nullary_bufs_sub .., binary_bufs_sub .., unary_bufs_sub .., nullary_bufs_sub ..,
    unary_bufs_sub .., unary_bufs_sub .., ternary_bufs_sub .., unary_bufs_sub .., nullary_bufs_sub .., unary_bufs_sub ..,
    unary_bufs_sub .., ternary_bufs_sub .., unary_bufs_sub .., nullary_bufs_sub .., unary_bufs_sub .., binary_bufs_sub ..,
    unary_bufs_sub .., unary_bufs_sub .., binary_bufs_sub .., unary_bufs_sub .., binary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., reshape_bufs_sub ..⟩

/-- No operation of the line allocates a buffer: each determines its results. -/
theorem ops_fresh : (ops : List (HloOp τ sig (Elt F))).Forall fun op => op.fresh = ∅ := by
  simp only [List.Forall]; repeat' constructor

/-- On every device, for any float values, from any memory with zero counters: every weakly fair execution of @main
    terminates, and every final state has each TensorCore buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefChunks.lean ====
/- The reference's operations cut into three consecutive lists — the integer chain that maps a channel to its group,
   the per-group statistics, the normalization — and the fold over a concatenation as the folds in turn. -/
import proofs.«117900_j4363686773082_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 52: the channel's group index, from the group sizes. -/
abbrev c1 : List (HloOp τ sig (Elt F)) :=
  [ StableHlo.nullary main_v0 (iotaInDim S8 32 0),
    StableHlo.TRef.unary (.of main_arg3 : StableHlo.TRef sig ⟨S8, .i32⟩) (.of main_call0_v0 : StableHlo.TRef sig ⟨S1, .i32⟩) (extractStridedSlice S1 ![7] · slices_S8_S1_7),
    StableHlo.TRef.unary (.of main_arg3 : StableHlo.TRef sig ⟨S8, .i32⟩) (.of main_call0_v1 : StableHlo.TRef sig ⟨S7, .i32⟩) (extractStridedSlice S7 ![0] · slices_S8_S7_0),
    StableHlo.TRef.binary (.of main_call0_v0 : StableHlo.TRef sig ⟨S1, .i32⟩) (.of main_call0_v1 : StableHlo.TRef sig ⟨S7, .i32⟩) (.of main_v1 : StableHlo.TRef sig ⟨S8, .i32⟩) (fun a b => concatenate S8 0 [⟨S1, a⟩, ⟨S7, b⟩] concatenates_S1_S7_S8_d0),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v3 : StableHlo.TRef sig ⟨S8, .i32⟩) (.of main_call1_call0_v0 : StableHlo.TRef sig ⟨S_, .i32⟩) (.of main_v4 : StableHlo.TRef sig ⟨S8, .i32⟩) (fun x v => Host.reduceWindow IntOp.addi ![8] ![1] ![7] ![0] x v reduceWindows_S8_S8_w8s1p7_0 h_S_),
    StableHlo.nullary main_c_1 (constantI S_ 32 0#32),
    StableHlo.unary main_c_1 main_v5 (broadcastInDim S256 ![] bcast_S_S256 : (⟨S_, .i32⟩ : BufTy).Contents (Elt F) → (⟨S256, .i32⟩ : BufTy).Contents (Elt F)),
    StableHlo.nullary main_c_2 (constantI S_ 32 0#32),
    StableHlo.unary main_c_2 main_v6 (broadcastInDim S8 ![] bcast_S_S8 : (⟨S_, .i32⟩ : BufTy).Contents (Elt F) → (⟨S8, .i32⟩ : BufTy).Contents (Elt F)),
    StableHlo.binary main_v4 main_v6 main_v7 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 256#32),
    StableHlo.unary main_c_3 main_v8 (broadcastInDim S8 ![] bcast_S_S8 : (⟨S_, .i32⟩ : BufTy).Contents (Elt F) → (⟨S8, .i32⟩ : BufTy).Contents (Elt F)),
    StableHlo.binary main_v4 main_v8 main_v9 (addi : (⟨S8, .i32⟩ : BufTy).Contents (Elt F) → (⟨S8, .i32⟩ : BufTy).Contents (Elt F) → (⟨S8, .i32⟩ : BufTy).Contents (Elt F)),
    StableHlo.ternary main_v7 main_v9 main_v4 main_v10 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v10 main_v11 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v12 (broadcastInDim S8 ![] bcast_S_S8 : (⟨S_, .i32⟩ : BufTy).Contents (Elt F) → (⟨S8, .i32⟩ : BufTy).Contents (Elt F)),
    StableHlo.ternary main_v5 main_v11 main_v12 main_v13 ((fun x i u => Host.scatter scatter_S256_S8x1_S8_n_0_0_1 IntOp.addi x i u) : (⟨S256, .i32⟩ : BufTy).Contents (Elt F) → (⟨S8x1, .i32⟩ : BufTy).Contents (Elt F) → (⟨S8, .i32⟩ : BufTy).Contents (Elt F) → (⟨S256, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v13 : StableHlo.TRef sig ⟨S256, .i32⟩) (.of main_call2_call0_v0 : StableHlo.TRef sig ⟨S_, .i32⟩) (.of main_v14 : StableHlo.TRef sig ⟨S256, .i32⟩) (fun x v => Host.reduceWindow IntOp.addi ![256] ![1] ![255] ![0] x v reduceWindows_S256_S256_w256s1p255_0 h_S_),
    StableHlo.nullary main_c_5 (constantI S_ 32 1#32),
    StableHlo.unary main_c_5 main_v15 (broadcastInDim S256 ![] bcast_S_S256 : (⟨S_, .i32⟩ : BufTy).Contents (Elt F) → (⟨S256, .i32⟩ : BufTy).Contents (Elt F)),
    StableHlo.binary main_v14 main_v15 main_v16 (subi : (⟨S256, .i32⟩ : BufTy).Contents (Elt F) → (⟨S256, .i32⟩ : BufTy).Contents (Elt F) → (⟨S256, .i32⟩ : BufTy).Contents (Elt F)),
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S256, .i32⟩) (broadcastInDim S256 ![] bcast_S_S256),
    StableHlo.TRef.binary (.of main_v16 : StableHlo.TRef sig ⟨S256, .i32⟩) (.of main_call3_v0 : StableHlo.TRef sig ⟨S256, .i32⟩) (.of main_call3_v1 : StableHlo.TRef sig ⟨S256, .i1⟩) (cmpi .slt),
    StableHlo.TRef.nullary (.of main_call3_c_0 : StableHlo.TRef sig ⟨S_, .i32⟩) (constantI S_ 32 8#32),
    StableHlo.TRef.unary (.of main_call3_c_0 : StableHlo.TRef sig ⟨S_, .i32⟩) (.of main_call3_v2 : StableHlo.TRef sig ⟨S256, .i32⟩) (broadcastInDim S256 ![] bcast_S_S256),
    StableHlo.TRef.binary (.of main_v16 : StableHlo.TRef sig ⟨S256, .i32⟩) (.of main_call3_v2 : StableHlo.TRef sig ⟨S256, .i32⟩) (.of main_call3_v3 : StableHlo.TRef sig ⟨S256, .i32⟩) addi,
    StableHlo.TRef.ternary (.of main_call3_v1 : StableHlo.TRef sig ⟨S256, .i1⟩) (.of main_call3_v3 : StableHlo.TRef sig ⟨S256, .i32⟩) (.of main_v16 : StableHlo.TRef sig ⟨S256, .i32⟩) (.of main_call3_v4 : StableHlo.TRef sig ⟨S256, .i32⟩) select,
    StableHlo.TRef.unary main_call3_call0.v0 (.of main_call3_v5 : StableHlo.TRef sig ⟨S256x1, .i32⟩) (broadcastInDim S256x1 ![0] bcast_S256_S256x1_0),
    StableHlo.TRef.nullary (.of main_call3_c_1 : StableHlo.TRef sig ⟨S1, .i32⟩) (constantI S1 32 7#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S256x1, .i32⟩) (broadcastInDim S256x1 ![] bcast_S_S256x1),
    StableHlo.TRef.binary (.of main_call3_v5 : StableHlo.TRef sig ⟨S256x1, .i32⟩) (.of main_call3_v6 : StableHlo.TRef sig ⟨S256x1, .i32⟩) (.of main_call3_v7 : StableHlo.TRef sig ⟨S256x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S256x1, .i32⟩) (broadcastInDim S256x1 ![0, 1] bcast_S1x1_S256x1_0_1),
    StableHlo.TRef.binary (.of main_call3_v5 : StableHlo.TRef sig ⟨S256x1, .i32⟩) (.of main_call3_v9 : StableHlo.TRef sig ⟨S256x1, .i32⟩) (.of main_call3_v10 : StableHlo.TRef sig ⟨S256x1, .i1⟩) (cmpi .sle),
    StableHlo.TRef.binary (.of main_call3_v7 : StableHlo.TRef sig ⟨S256x1, .i1⟩) (.of main_call3_v10 : StableHlo.TRef sig ⟨S256x1, .i1⟩) (.of main_call3_v11 : StableHlo.TRef sig ⟨S256x1, .i1⟩) andi,
    StableHlo.TRef.nullary (.of main_call3_c_3 : StableHlo.TRef sig ⟨S_, .i1⟩) (constantI S_ 1 1#1),
    StableHlo.TRef.binary (.of main_call3_v11 : StableHlo.TRef sig ⟨S256x1, .i1⟩) (.of main_call3_c_3 : StableHlo.TRef sig ⟨S_, .i1⟩) (.of main_call3_v12 : StableHlo.TRef sig ⟨S256, .i1⟩) (fun x v => Host.reduce IntOp.andi x v reducesTo_S256x1_S256_d1 h_S_),
    StableHlo.TRef.binary (.of main_v0 : StableHlo.TRef sig ⟨S8, .i32⟩) (.of main_call3_v5 : StableHlo.TRef sig ⟨S256x1, .i32⟩) (.of main_call3_v13 : StableHlo.TRef sig ⟨S256, .i32⟩) (fun x i => Host.gather gather_S8_S256x1_S256_n_0_n_n_0_1_1 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S256, .i32⟩) (broadcastInDim S256 ![] bcast_S_S256),
    StableHlo.TRef.ternary (.of main_call3_v12 : StableHlo.TRef sig ⟨S256, .i1⟩) (.of main_call3_v13 : StableHlo.TRef sig ⟨S256, .i32⟩) (.of main_call3_v14 : StableHlo.TRef sig ⟨S256, .i32⟩) (.of main_v17 : StableHlo.TRef sig ⟨S256, .i32⟩) select ]

/-- Operations 53 … 86: the per-channel sums, the per-group sums, mean, variance and inverse deviation. -/
abbrev c2 : List (HloOp τ sig (Elt F)) :=
  [ StableHlo.reshape main_arg0 main_v18 rfl shapeCasts_S64x256x56x56_S64x256x3136,
    StableHlo.nullary main_cst (constant S_ .f32 0x00000000#32),
    StableHlo.binary main_v18 main_cst main_v19 ((fun x v => Host.reduceAdd x v reducesTo_S64x256x3136_S64x256_d2 h_S_) : (⟨S64x256x3136, .f32⟩ : BufTy).Contents (Elt F) → (⟨S_, .f32⟩ : BufTy).Contents (Elt F) → (⟨S64x256, .f32⟩ : BufTy).Contents (Elt F)),
    StableHlo.binary main_v18 main_v18 main_v20 (mulf : (⟨S64x256x3136, .f32⟩ : BufTy).Contents (Elt F) → (⟨S64x256x3136, .f32⟩ : BufTy).Contents (Elt F) → (⟨S64x256x3136, .f32⟩ : BufTy).Contents (Elt F)),
    StableHlo.nullary main_cst_6 (constant S_ .f32 0x00000000#32),
    StableHlo.binary main_v20 main_cst_6 main_v21 ((fun x v => Host.reduceAdd x v reducesTo_S64x256x3136_S64x256_d2 h_S_) : (⟨S64x256x3136, .f32⟩ : BufTy).Contents (Elt F) → (⟨S_, .f32⟩ : BufTy).Contents (Elt F) → (⟨S64x256, .f32⟩ : BufTy).Contents (Elt F)),
    StableHlo.unary main_v19 main_v22 ((transpose S256x64 [1, 0] · transposes_S64x256_S256x64_1_0) : (⟨S64x256, .f32⟩ : BufTy).Contents (Elt F) → (⟨S256x64, .f32⟩ : BufTy).Contents (Elt F)),
    StableHlo.nullary main_cst_7 (constant S_ .f32 0x00000000#32),
    StableHlo.unary main_cst_7 main_v23 (broadcastInDim S8x64 ![] bcast_S_S8x64 : (⟨S_, .f32⟩ : BufTy).Contents (Elt F) → (⟨S8x64, .f32⟩ : BufTy).Contents (Elt F)),
    StableHlo.unary main_v17 main_v24 (broadcastInDim S256x1 ![0] bcast_S256_S256x1_0 : (⟨S256, .i32⟩ : BufTy).Contents (Elt F) → (⟨S256x1, .i32⟩ : BufTy).Contents (Elt F)),
    StableHlo.ternary main_v23 main_v24 main_v22 main_v25 ((fun x i u => Host.scatterAdd scatter_S8x64_S256x1_S256x64_1_0_0_1 x i u) : (⟨S8x64, .f32⟩ : BufTy).Contents (Elt F) → (⟨S256x1, .i32⟩ : BufTy).Contents (Elt F) → (⟨S256x64, .f32⟩ : BufTy).Contents (Elt F) → (⟨S8x64, .f32⟩ : BufTy).Contents (Elt F)),
    StableHlo.unary main_v21 main_v26 ((transpose S256x64 [1, 0] · transposes_S64x256_S256x64_1_0) : (⟨S64x256, .f32⟩ : BufTy).Contents (Elt F) → (⟨S256x64, .f32⟩ : BufTy).Contents (Elt F)),
    StableHlo.nullary main_cst_8 (constant S_ .f32 0x00000000#32),
    StableHlo.unary main_cst_8 main_v27 (broadcastInDim S8x64 ![] bcast_S_S8x64 : (⟨S_, .f32⟩ : BufTy).Contents (Elt F) → (⟨S8x64, .f32⟩ : BufTy).Contents (Elt F)),
    StableHlo.unary main_v17 main_v28 (broadcastInDim S256x1 ![0] bcast_S256_S256x1_0 : (⟨S256, .i32⟩ : BufTy).Contents (Elt F) → (⟨S256x1, .i32⟩ : BufTy).Contents (Elt F)),
    StableHlo.ternary main_v27 main_v28 main_v26 main_v29 ((fun x i u => Host.scatterAdd scatter_S8x64_S256x1_S256x64_1_0_0_1 x i u) : (⟨S8x64, .f32⟩ : BufTy).Contents (Elt F) → (⟨S256x1, .i32⟩ : BufTy).Contents (Elt F) → (⟨S256x64, .f32⟩ : BufTy).Contents (Elt F) → (⟨S8x64, .f32⟩ : BufTy).Contents (Elt F)),
    StableHlo.unary main_arg3 main_v30 (sitofp .f32 : (⟨S8, .i32⟩ : BufTy).Contents (Elt F) → (⟨S8, .f32⟩ : BufTy).Contents (Elt F)),
    StableHlo.nullary main_cst_9 (constant S_ .f32 0x45440000#32),
    StableHlo.unary main_cst_9 main_v31 (broadcastInDim S8 ![] bcast_S_S8 : (⟨S_, .f32⟩ : BufTy).Contents (Elt F) → (⟨S8, .f32⟩ : BufTy).Contents (Elt F)),
    StableHlo.binary main_v30 main_v31 main_v32 (mulf : (⟨S8, .f32⟩ : BufTy).Contents (Elt F) → (⟨S8, .f32⟩ : BufTy).Contents (Elt F) → (⟨S8, .f32⟩ : BufTy).Contents (Elt F)),
    StableHlo.unary main_v32 main_v33 (broadcastInDim S8x1 ![0] bcast_S8_S8x1_0 : (⟨S8, .f32⟩ : BufTy).Contents (Elt F) → (⟨S8x1, .f32⟩ : BufTy).Contents (Elt F)),
    StableHlo.unary main_v33 main_v34 (broadcastInDim S8x64 ![0, 1] bcast_S8x1_S8x64_0_1 : (⟨S8x1, .f32⟩ : BufTy).Contents (Elt F) → (⟨S8x64, .f32⟩ : BufTy).Contents (Elt F)),
    StableHlo.binary main_v25 main_v34 main_v35 (Host.divf : (⟨S8x64, .f32⟩ : BufTy).Contents (Elt F) → (⟨S8x64, .f32⟩ : BufTy).Contents (Elt F) → (⟨S8x64, .f32⟩ : BufTy).Contents (Elt F)),
    StableHlo.unary main_v33 main_v36 (broadcastInDim S8x64 ![0, 1] bcast_S8x1_S8x64_0_1 : (⟨S8x1, .f32⟩ : BufTy).Contents (Elt F) → (⟨S8x64, .f32⟩ : BufTy).Contents (Elt F)),
    StableHlo.binary main_v29 main_v36 main_v37 (Host.divf : (⟨S8x64, .f32⟩ : BufTy).Contents (Elt F) → (⟨S8x64, .f32⟩ : BufTy).Contents (Elt F) → (⟨S8x64, .f32⟩ : BufTy).Contents (Elt F)),
    StableHlo.binary main_v35 main_v35 main_v38 (mulf : (⟨S8x64, .f32⟩ : BufTy).Contents (Elt F) → (⟨S8x64, .f32⟩ : BufTy).Contents (Elt F) → (⟨S8x64, .f32⟩ : BufTy).Contents (Elt F)),
    StableHlo.binary main_v37 main_v38 main_v39 (subf : (⟨S8x64, .f32⟩ : BufTy).Contents (Elt F) → (⟨S8x64, .f32⟩ : BufTy).Contents (Elt F) → (⟨S8x64, .f32⟩ : BufTy).Contents (Elt F)),
    StableHlo.nullary main_cst_10 (constant S_ .f32 0x2B8CBCCC#32),
    StableHlo.unary main_cst_10 main_v40 (broadcastInDim S8x64 ![] bcast_S_S8x64 : (⟨S_, .f32⟩ : BufTy).Contents (Elt F) → (⟨S8x64, .f32⟩ : BufTy).Contents (Elt F)),
    StableHlo.binary main_v39 main_v40 main_v41 (addf : (⟨S8x64, .f32⟩ : BufTy).Contents (Elt F) → (⟨S8x64, .f32⟩ : BufTy).Contents (Elt F) → (⟨S8x64, .f32⟩ : BufTy).Contents (Elt F)),
    StableHlo.unary main_v41 main_v42 (Host.sqrt : (⟨S8x64, .f32⟩ : BufTy).Contents (Elt F) → (⟨S8x64, .f32⟩ : BufTy).Contents (Elt F)),
    StableHlo.nullary main_cst_11 (constant S_ .f32 0x3F800000#32),
    StableHlo.unary main_cst_11 main_v43 (broadcastInDim S8x64 ![] bcast_S_S8x64 : (⟨S_, .f32⟩ : BufTy).Contents (Elt F) → (⟨S8x64, .f32⟩ : BufTy).Contents (Elt F)),
    StableHlo.binary main_v43 main_v42 main_v44 (Host.divf : (⟨S8x64, .f32⟩ : BufTy).Contents (Elt F) → (⟨S8x64, .f32⟩ : BufTy).Contents (Elt F) → (⟨S8x64, .f32⟩ : BufTy).Contents (Elt F)) ]

/-- Operations 87 … 119: the statistics gathered back to channels, and the normalization. -/
abbrev c3 : List (HloOp τ sig (Elt F)) :=
  [ StableHlo.nullary main_c_12 (constantI S_ 32 0#32),
    StableHlo.unary main_c_12 main_v45 (broadcastInDim S256 ![] bcast_S_S256 : (⟨S_, .i32⟩ : BufTy).Contents (Elt F) → (⟨S256, .i32⟩ : BufTy).Contents (Elt F)),
    StableHlo.binary main_v17 main_v45 main_v46 (cmpi .slt : (⟨S256, .i32⟩ : BufTy).Contents (Elt F) → (⟨S256, .i32⟩ : BufTy).Contents (Elt F) → (⟨S256, .i1⟩ : BufTy).Contents (Elt F)),
    StableHlo.nullary main_c_13 (constantI S_ 32 8#32),
    StableHlo.unary main_c_13 main_v47 (broadcastInDim S256 ![] bcast_S_S256 : (⟨S_, .i32⟩ : BufTy).Contents (Elt F) → (⟨S256, .i32⟩ : BufTy).Contents (Elt F)),
    StableHlo.binary main_v17 main_v47 main_v48 (addi : (⟨S256, .i32⟩ : BufTy).Contents (Elt F) → (⟨S256, .i32⟩ : BufTy).Contents (Elt F) → (⟨S256, .i32⟩ : BufTy).Contents (Elt F)),
    StableHlo.ternary main_v46 main_v48 main_v17 main_v49 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v49 main_v50 (broadcastInDim S256x1 ![0] bcast_S256_S256x1_0 : (⟨S256, .i32⟩ : BufTy).Contents (Elt F) → (⟨S256x1, .i32⟩ : BufTy).Contents (Elt F)),
    StableHlo.binary main_v35 main_v50 main_v51 ((fun x i => Host.gather gather_S8x64_S256x1_S256x64_1_0_n_n_0_1_164 x i) : (⟨S8x64, .f32⟩ : BufTy).Contents (Elt F) → (⟨S256x1, .i32⟩ : BufTy).Contents (Elt F) → (⟨S256x64, .f32⟩ : BufTy).Contents (Elt F)),
    StableHlo.unary main_v51 main_v52 ((transpose S64x256 [1, 0] · transposes_S256x64_S64x256_1_0) : (⟨S256x64, .f32⟩ : BufTy).Contents (Elt F) → (⟨S64x256, .f32⟩ : BufTy).Contents (Elt F)),
    StableHlo.unary main_v52 main_v53 (broadcastInDim S64x256x1 ![0, 1] bcast_S64x256_S64x256x1_0_1 : (⟨S64x256, .f32⟩ : BufTy).Contents (Elt F) → (⟨S64x256x1, .f32⟩ : BufTy).Contents (Elt F)),
    StableHlo.nullary main_c_14 (constantI S_ 32 0#32),
    StableHlo.unary main_c_14 main_v54 (broadcastInDim S256 ![] bcast_S_S256 : (⟨S_, .i32⟩ : BufTy).Contents (Elt F) → (⟨S256, .i32⟩ : BufTy).Contents (Elt F)),
    StableHlo.binary main_v17 main_v54 main_v55 (cmpi .slt : (⟨S256, .i32⟩ : BufTy).Contents (Elt F) → (⟨S256, .i32⟩ : BufTy).Contents (Elt F) → (⟨S256, .i1⟩ : BufTy).Contents (Elt F)),
    StableHlo.nullary main_c_15 (constantI S_ 32 8#32),
    StableHlo.unary main_c_15 main_v56 (broadcastInDim S256 ![] bcast_S_S256 : (⟨S_, .i32⟩ : BufTy).Contents (Elt F) → (⟨S256, .i32⟩ : BufTy).Contents (Elt F)),
    StableHlo.binary main_v17 main_v56 main_v57 (addi : (⟨S256, .i32⟩ : BufTy).Contents (Elt F) → (⟨S256, .i32⟩ : BufTy).Contents (Elt F) → (⟨S256, .i32⟩ : BufTy).Contents (Elt F)),
    StableHlo.ternary main_v55 main_v57 main_v17 main_v58 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v58 main_v59 (broadcastInDim S256x1 ![0] bcast_S256_S256x1_0 : (⟨S256, .i32⟩ : BufTy).Contents (Elt F) → (⟨S256x1, .i32⟩ : BufTy).Contents (Elt F)),
    StableHlo.binary main_v44 main_v59 main_v60 ((fun x i => Host.gather gather_S8x64_S256x1_S256x64_1_0_n_n_0_1_164 x i) : (⟨S8x64, .f32⟩ : BufTy).Contents (Elt F) → (⟨S256x1, .i32⟩ : BufTy).Contents (Elt F) → (⟨S256x64, .f32⟩ : BufTy).Contents (Elt F)),
    StableHlo.unary main_v60 main_v61 ((transpose S64x256 [1, 0] · transposes_S256x64_S64x256_1_0) : (⟨S256x64, .f32⟩ : BufTy).Contents (Elt F) → (⟨S64x256, .f32⟩ : BufTy).Contents (Elt F)),
    StableHlo.unary main_v61 main_v62 (broadcastInDim S64x256x1 ![0, 1] bcast_S64x256_S64x256x1_0_1 : (⟨S64x256, .f32⟩ : BufTy).Contents (Elt F) → (⟨S64x256x1, .f32⟩ : BufTy).Contents (Elt F)),
    StableHlo.unary main_v53 main_v63 (broadcastInDim S64x256x3136 ![0, 1, 2] bcast_S64x256x1_S64x256x3136_0_1_2 : (⟨S64x256x1, .f32⟩ : BufTy).Contents (Elt F) → (⟨S64x256x3136, .f32⟩ : BufTy).Contents (Elt F)),
    StableHlo.binary main_v18 main_v63 main_v64 (subf : (⟨S64x256x3136, .f32⟩ : BufTy).Contents (Elt F) → (⟨S64x256x3136, .f32⟩ : BufTy).Contents (Elt F) → (⟨S64x256x3136, .f32⟩ : BufTy).Contents (Elt F)),
    StableHlo.unary main_v62 main_v65 (broadcastInDim S64x256x3136 ![0, 1, 2] bcast_S64x256x1_S64x256x3136_0_1_2 : (⟨S64x256x1, .f32⟩ : BufTy).Contents (Elt F) → (⟨S64x256x3136, .f32⟩ : BufTy).Contents (Elt F)),
    StableHlo.binary main_v64 main_v65 main_v66 (mulf : (⟨S64x256x3136, .f32⟩ : BufTy).Contents (Elt F) → (⟨S64x256x3136, .f32⟩ : BufTy).Contents (Elt F) → (⟨S64x256x3136, .f32⟩ : BufTy).Contents (Elt F)),
    StableHlo.unary main_arg1 main_v67 (broadcastInDim S1x256x1 ![1] bcast_S256_S1x256x1_1 : (⟨S256, .f32⟩ : BufTy).Contents (Elt F) → (⟨S1x256x1, .f32⟩ : BufTy).Contents (Elt F)),
    StableHlo.unary main_v67 main_v68 (broadcastInDim S64x256x3136 ![0, 1, 2] bcast_S1x256x1_S64x256x3136_0_1_2 : (⟨S1x256x1, .f32⟩ : BufTy).Contents (Elt F) → (⟨S64x256x3136, .f32⟩ : BufTy).Contents (Elt F)),
    StableHlo.binary main_v66 main_v68 main_v69 (mulf : (⟨S64x256x3136, .f32⟩ : BufTy).Contents (Elt F) → (⟨S64x256x3136, .f32⟩ : BufTy).Contents (Elt F) → (⟨S64x256x3136, .f32⟩ : BufTy).Contents (Elt F)),
    StableHlo.unary main_arg2 main_v70 (broadcastInDim S1x256x1 ![1] bcast_S256_S1x256x1_1 : (⟨S256, .f32⟩ : BufTy).Contents (Elt F) → (⟨S1x256x1, .f32⟩ : BufTy).Contents (Elt F)),
    StableHlo.unary main_v70 main_v71 (broadcastInDim S64x256x3136 ![0, 1, 2] bcast_S1x256x1_S64x256x3136_0_1_2 : (⟨S1x256x1, .f32⟩ : BufTy).Contents (Elt F) → (⟨S64x256x3136, .f32⟩ : BufTy).Contents (Elt F)),
    StableHlo.binary main_v69 main_v71 main_v72 (addf : (⟨S64x256x3136, .f32⟩ : BufTy).Contents (Elt F) → (⟨S64x256x3136, .f32⟩ : BufTy).Contents (Elt F) → (⟨S64x256x3136, .f32⟩ : BufTy).Contents (Elt F)),
    StableHlo.reshape main_v72 main_v73 rfl shapeCasts_S64x256x3136_S64x256x56x56 ]

set_option maxRecDepth 8192 in
/-- The line is the three lists in order. -/
theorem ops_split : (ops : List (HloOp τ sig (Elt F))) = c1 ++ (c2 ++ c3) := rfl

/-- The fold over a concatenation is the fold over the second list from the fold over the first. -/
theorem after_append {sig : RefSig} {τ : Topo} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The whole fold, stage by stage. -/
theorem after_ops (V : Valuation τ sig (Elt F)) : after ops V = after c3 (after c2 (after c1 V)) := by
  rw [ops_split, after_append, after_append]

end Cert.ReferenceIdeal.RefRun

end
-- ==== Proof.RefOut.lean ====
/- What the reference program's run leaves in its result buffer, as the specification's function of the four
   arguments, and the arguments unchanged. -/
import proofs.«117900_j4363686773082_2_alg».proof.Proof.RefChunks
import proofs.«117900_j4363686773082_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Stage 1: the channel's group index -/

-- the operations' own bodies stay folded while the chain of results is computed
attribute [local irreducible] Host.reduce Host.reduceAdd Host.gather Host.scatter Host.scatterAdd Host.reduceWindow Host.divf Host.sqrt concatenate extractStridedSlice transpose broadcastInDim shapeCast iotaInDim in
set_option maxRecDepth 8192 in
set_option maxHeartbeats 2000000 in
/-- The first 52 operations leave the channel -> group map in `main_v17`: each operation's result decides whether the
    buffer read is the one it writes, down to the group sizes. -/
theorem s1_gid (W : Valuation τ sig (Elt F)) :
    after c1 W (Proc.devRef .tc main_v17) = Cert.GN.gid (W (Proc.devRef .tc main_arg3)) := by
  simp only [after_cons, after_nil]
  rfl

/-- They write none of the four arguments. -/
theorem s1_arg0 (W : Valuation τ sig (Elt F)) : after c1 W (Proc.devRef .tc main_arg0) = W (Proc.devRef .tc main_arg0) := by
  after_results_simp
theorem s1_arg1 (W : Valuation τ sig (Elt F)) : after c1 W (Proc.devRef .tc main_arg1) = W (Proc.devRef .tc main_arg1) := by
  after_results_simp
theorem s1_arg2 (W : Valuation τ sig (Elt F)) : after c1 W (Proc.devRef .tc main_arg2) = W (Proc.devRef .tc main_arg2) := by
  after_results_simp
theorem s1_arg3 (W : Valuation τ sig (Elt F)) : after c1 W (Proc.devRef .tc main_arg3) = W (Proc.devRef .tc main_arg3) := by
  after_results_simp

/-! ## Stage 2: the per-group statistics -/

/-- The next 34 operations keep the group index and the arguments, -/
theorem s2_v17 (W : Valuation τ sig (Elt F)) : after c2 W (Proc.devRef .tc main_v17) = W (Proc.devRef .tc main_v17) := by
  after_results_simp
theorem s2_arg0 (W : Valuation τ sig (Elt F)) : after c2 W (Proc.devRef .tc main_arg0) = W (Proc.devRef .tc main_arg0) := by
  after_results_simp
theorem s2_arg1 (W : Valuation τ sig (Elt F)) : after c2 W (Proc.devRef .tc main_arg1) = W (Proc.devRef .tc main_arg1) := by
  after_results_simp
theorem s2_arg2 (W : Valuation τ sig (Elt F)) : after c2 W (Proc.devRef .tc main_arg2) = W (Proc.devRef .tc main_arg2) := by
  after_results_simp
theorem s2_arg3 (W : Valuation τ sig (Elt F)) : after c2 W (Proc.devRef .tc main_arg3) = W (Proc.devRef .tc main_arg3) := by
  after_results_simp

attribute [local irreducible] Host.reduce Host.reduceAdd Host.gather Host.scatter Host.scatterAdd Host.reduceWindow Host.divf Host.sqrt concatenate extractStridedSlice transpose broadcastInDim shapeCast iotaInDim in
set_option maxRecDepth 8192 in
set_option maxHeartbeats 2000000 in
/-- … recast the input as [64, 256, 3136], -/
theorem s2_v18 (W : Valuation τ sig (Elt F)) :
    after c2 W (Proc.devRef .tc main_v18) = Cert.GN.x3 (W (Proc.devRef .tc main_arg0)) := by
  after_results_simp
  rfl

attribute [local irreducible] Host.reduce Host.reduceAdd Host.gather Host.scatter Host.scatterAdd Host.reduceWindow Host.divf Host.sqrt concatenate extractStridedSlice transpose broadcastInDim shapeCast iotaInDim in
set_option maxRecDepth 8192 in
set_option maxHeartbeats 2000000 in
/-- … leave the group mean in `main_v35`, -/
theorem s2_v35 (W : Valuation τ sig (Elt F)) :
    after c2 W (Proc.devRef .tc main_v35)
      = Cert.GN.mean (Cert.GN.seg (W (Proc.devRef .tc main_v17)) (Cert.GN.chSum (W (Proc.devRef .tc main_arg0)))) (Cert.GN.cnt (W (Proc.devRef .tc main_arg3))) := by
  after_results_simp
  rfl

attribute [local irreducible] Host.reduce Host.reduceAdd Host.gather Host.scatter Host.scatterAdd Host.reduceWindow Host.divf Host.sqrt concatenate extractStridedSlice transpose broadcastInDim shapeCast iotaInDim in
set_option maxRecDepth 8192 in
set_option maxHeartbeats 2000000 in
/-- … and the group's inverse deviation in `main_v44`. -/
theorem s2_v44 (W : Valuation τ sig (Elt F)) :
    after c2 W (Proc.devRef .tc main_v44)
      = Cert.GN.ivar (Cert.GN.vari (Cert.GN.seg (W (Proc.devRef .tc main_v17)) (Cert.GN.chSq (W (Proc.devRef .tc main_arg0))))
          (Cert.GN.seg (W (Proc.devRef .tc main_v17)) (Cert.GN.chSum (W (Proc.devRef .tc main_arg0)))) (Cert.GN.cnt (W (Proc.devRef .tc main_arg3)))) := by
  after_results_simp
  rfl

/-! ## Stage 3: the normalization -/

/-- The last 33 operations keep the arguments, -/
theorem s3_arg0 (W : Valuation τ sig (Elt F)) : after c3 W (Proc.devRef .tc main_arg0) = W (Proc.devRef .tc main_arg0) := by
  after_results_simp
theorem s3_arg1 (W : Valuation τ sig (Elt F)) : after c3 W (Proc.devRef .tc main_arg1) = W (Proc.devRef .tc main_arg1) := by
  after_results_simp
theorem s3_arg2 (W : Valuation τ sig (Elt F)) : after c3 W (Proc.devRef .tc main_arg2) = W (Proc.devRef .tc main_arg2) := by
  after_results_simp
theorem s3_arg3 (W : Valuation τ sig (Elt F)) : after c3 W (Proc.devRef .tc main_arg3) = W (Proc.devRef .tc main_arg3) := by
  after_results_simp

attribute [local irreducible] Host.reduce Host.reduceAdd Host.gather Host.scatter Host.scatterAdd Host.reduceWindow Host.divf Host.sqrt concatenate extractStridedSlice transpose broadcastInDim shapeCast iotaInDim in
set_option maxRecDepth 8192 in
set_option maxHeartbeats 2000000 in
/-- … and leave in the result buffer the input minus the channel's mean, times its inverse deviation, times the weight,
    plus the bias, recast to [64, 256, 56, 56]. -/
theorem s3_out (W : Valuation τ sig (Elt F)) :
    after c3 W (Proc.devRef .tc main_v73)
      = shapeCast S64x256x56x56 (addf (mulf (mulf (subf (W (Proc.devRef .tc main_v18))
            (Cert.GN.spread (Cert.GN.perCh (W (Proc.devRef .tc main_v17)) (W (Proc.devRef .tc main_v35)))))
            (Cert.GN.spread (Cert.GN.perCh (W (Proc.devRef .tc main_v17)) (W (Proc.devRef .tc main_v44)))))
            (Cert.GN.spreadCh (W (Proc.devRef .tc main_arg1)))) (Cert.GN.spreadCh (W (Proc.devRef .tc main_arg2))))
          shapeCasts_S64x256x3136_S64x256x56x56 := by
  after_results_simp
  rfl

/-! ## The whole line -/

/-- From any contents, the line leaves the specification's function of the four arguments in the result buffer. -/
theorem out_eq' (V : Valuation τ sig (Elt F)) :
    after ops V (Proc.devRef .tc main_v73)
      = Cert.GN.refOut (V (Proc.devRef .tc main_arg0)) (V (Proc.devRef .tc main_arg1)) (V (Proc.devRef .tc main_arg2)) (V (Proc.devRef .tc main_arg3)) := by
  rw [after_ops, s3_out, s2_v18, s2_v17, s2_v35, s2_v44, s2_arg1, s2_arg2, s1_gid, s1_arg0, s1_arg1, s1_arg2, s1_arg3]
  rfl

theorem arg0_eq' (V : Valuation τ sig (Elt F)) : after ops V (Proc.devRef .tc main_arg0) = V (Proc.devRef .tc main_arg0) := by
  rw [after_ops, s3_arg0, s2_arg0, s1_arg0]
theorem arg1_eq' (V : Valuation τ sig (Elt F)) : after ops V (Proc.devRef .tc main_arg1) = V (Proc.devRef .tc main_arg1) := by
  rw [after_ops, s3_arg1, s2_arg1, s1_arg1]
theorem arg2_eq' (V : Valuation τ sig (Elt F)) : after ops V (Proc.devRef .tc main_arg2) = V (Proc.devRef .tc main_arg2) := by
  rw [after_ops, s3_arg2, s2_arg2, s1_arg2]
theorem arg3_eq' (V : Valuation τ sig (Elt F)) : after ops V (Proc.devRef .tc main_arg3) = V (Proc.devRef .tc main_arg3) := by
  rw [after_ops, s3_arg3, s2_arg3, s1_arg3]

variable (m : (ℓ : Loc nD τ sig) → Buf (Elt F) ℓ)

/-- THE REFERENCE'S RESULT, read through the fold from the launch memory, is the specification's function of the four
    argument arrays. -/
theorem out_eq (c : Dev nD) :
    after ops (launchContents m c) (Proc.devRef .tc main_v73)
      = Cert.GN.refOut (m ((c.tc : Thread nD τ).loc main_arg0)) (m ((c.tc : Thread nD τ).loc main_arg1))
          (m ((c.tc : Thread nD τ).loc main_arg2)) (m ((c.tc : Thread nD τ).loc main_arg3)) :=
  out_eq' (launchContents m c)

/-- The line writes none of the four arguments. -/
theorem arg0_eq (c : Dev nD) : after ops (launchContents m c) (Proc.devRef .tc main_arg0) = m ((c.tc : Thread nD τ).loc main_arg0) :=
  arg0_eq' (launchContents m c)
theorem arg1_eq (c : Dev nD) : after ops (launchContents m c) (Proc.devRef .tc main_arg1) = m ((c.tc : Thread nD τ).loc main_arg1) :=
  arg1_eq' (launchContents m c)
theorem arg2_eq (c : Dev nD) : after ops (launchContents m c) (Proc.devRef .tc main_arg2) = m ((c.tc : Thread nD τ).loc main_arg2) :=
  arg2_eq' (launchContents m c)
theorem arg3_eq (c : Dev nD) : after ops (launchContents m c) (Proc.devRef .tc main_arg3) = m ((c.tc : Thread nD τ).loc main_arg3) :=
  arg3_eq' (launchContents m c)

end Cert.ReferenceIdeal.RefRun

end
-- ==== Proof.GidDefs.lean ====
/-
  The channel -> group map at the stated group sizes 4, 12, 20, 28, 36, 44, 52, 60, first stages: the groups start
  at channels 0, 4, 16, 36, 64, 100, 144, 196 (the exclusive prefix sums of the sizes), and the marks array holds a
  one at exactly these channels.
-/
import proofs.«117900_j4363686773082_2_alg».proof.Proof.Spec
import proofs.«117900_j4363686773082_2_alg».proof.Pre_finite_inputs

noncomputable section

namespace Cert.GN

open Idealize.ShloMosaic Idealize.ShloMosaic.ValueIdx Cert.ReferenceIdeal

/-- The stated group sizes as an array. -/
def sizes : IVec S8 32 := fun i => Cert.Pre_finite_inputs.lit0 (S8.rowMajor i)

/-- First channel of each group. -/
def startTab : Fin 8 → BitVec 32 := ![0#32, 4#32, 16#32, 36#32, 64#32, 100#32, 144#32, 196#32]

/-- Group of each channel. -/
def grp (c : Fin 256) : Fin 8 :=
  if c.val < 4 then 0 else if c.val < 16 then 1 else if c.val < 36 then 2 else if c.val < 64 then 3
  else if c.val < 100 then 4 else if c.val < 144 then 5 else if c.val < 196 then 6 else 7

theorem starts_sizes : starts sizes = fun i => startTab (i 0) := by
  funext i
  obtain ⟨a, rfl⟩ : ∃ a : Fin 8, i = ix1 a := ⟨i 0, eq_ix1 i⟩
  revert a
  decide +kernel

theorem marks_sizes : marks sizes = fun i => if (i 0).val ∈ [0, 4, 16, 36, 64, 100, 144, 196] then 1#32 else 0#32 := by
  unfold marks
  rw [starts_sizes]
  funext i
  obtain ⟨a, rfl⟩ : ∃ a : Fin 256, i = ix1 a := ⟨i 0, eq_ix1 i⟩
  revert a
  decide +kernel

/-- The running count of marks, minus one, at one channel, over the closed form of the marks. -/
def slotAt (a : Fin 256) : BitVec 32 :=
  subi (Host.reduceWindow IntOp.addi ![256] ![1] ![255] ![0]
      (fun i : S256.Idx => if (i 0).val ∈ [0, 4, 16, 36, 64, 100, 144, 196] then 1#32 else 0#32)
      (broadcastInDim S_ ![] Facts₀.bcast_S_S_ (constantI S_ 32 0#32)) Facts₀.reduceWindows_S256_S256_w256s1p255_0 Facts₀.h_S_)
    (broadcastInDim S256 ![] Facts₀.bcast_S_S256 (constantI S_ 32 1#32)) (ix1 a)

theorem slot_eq_slotAt (a : Fin 256) : slot sizes (ix1 a) = slotAt a := by
  unfold slot slotAt
  rw [marks_sizes]

end Cert.GN

end
-- ==== Proof.GidA.lean ====
/-
  The running count of group starts, minus one, is the channel's group: channels 0 to 127, sixteen at a time.
-/
import proofs.«117900_j4363686773082_2_alg».proof.Proof.GidDefs

noncomputable section

namespace Cert.GN

open Idealize.ShloMosaic Idealize.ShloMosaic.ValueIdx Cert.ReferenceIdeal

theorem slot_chunk0 : ∀ a : Fin 256, a.val / 16 = 0 → slotAt a = BitVec.ofNat 32 (grp a).val := by decide +kernel
theorem slot_chunk1 : ∀ a : Fin 256, a.val / 16 = 1 → slotAt a = BitVec.ofNat 32 (grp a).val := by decide +kernel
theorem slot_chunk2 : ∀ a : Fin 256, a.val / 16 = 2 → slotAt a = BitVec.ofNat 32 (grp a).val := by decide +kernel
theorem slot_chunk3 : ∀ a : Fin 256, a.val / 16 = 3 → slotAt a = BitVec.ofNat 32 (grp a).val := by decide +kernel
theorem slot_chunk4 : ∀ a : Fin 256, a.val / 16 = 4 → slotAt a = BitVec.ofNat 32 (grp a).val := by decide +kernel
theorem slot_chunk5 : ∀ a : Fin 256, a.val / 16 = 5 → slotAt a = BitVec.ofNat 32 (grp a).val := by decide +kernel
theorem slot_chunk6 : ∀ a : Fin 256, a.val / 16 = 6 → slotAt a = BitVec.ofNat 32 (grp a).val := by decide +kernel
theorem slot_chunk7 : ∀ a : Fin 256, a.val / 16 = 7 → slotAt a = BitVec.ofNat 32 (grp a).val := by decide +kernel

end Cert.GN

end
-- ==== Proof.GidB.lean ====
/-
  The running count of group starts, minus one, is the channel's group: channels 128 to 255, sixteen at a time.
-/
import proofs.«117900_j4363686773082_2_alg».proof.Proof.GidDefs

noncomputable section

namespace Cert.GN

open Idealize.ShloMosaic Idealize.ShloMosaic.ValueIdx Cert.ReferenceIdeal

theorem slot_chunk8 : ∀ a : Fin 256, a.val / 16 = 8 → slotAt a = BitVec.ofNat 32 (grp a).val := by decide +kernel
theorem slot_chunk9 : ∀ a : Fin 256, a.val / 16 = 9 → slotAt a = BitVec.ofNat 32 (grp a).val := by decide +kernel
theorem slot_chunk10 : ∀ a : Fin 256, a.val / 16 = 10 → slotAt a = BitVec.ofNat 32 (grp a).val := by decide +kernel
theorem slot_chunk11 : ∀ a : Fin 256, a.val / 16 = 11 → slotAt a = BitVec.ofNat 32 (grp a).val := by decide +kernel
theorem slot_chunk12 : ∀ a : Fin 256, a.val / 16 = 12 → slotAt a = BitVec.ofNat 32 (grp a).val := by decide +kernel
theorem slot_chunk13 : ∀ a : Fin 256, a.val / 16 = 13 → slotAt a = BitVec.ofNat 32 (grp a).val := by decide +kernel
theorem slot_chunk14 : ∀ a : Fin 256, a.val / 16 = 14 → slotAt a = BitVec.ofNat 32 (grp a).val := by decide +kernel
theorem slot_chunk15 : ∀ a : Fin 256, a.val / 16 = 15 → slotAt a = BitVec.ofNat 32 (grp a).val := by decide +kernel

end Cert.GN

end
-- ==== Proof.Gid.lean ====
/-
  The channel -> group map at the stated group sizes: channel c lies in the group numbered by how many group starts
  are at or before c, minus one; and each group has as many channels as its stated size.
-/
import proofs.«117900_j4363686773082_2_alg».proof.Proof.GidA
import proofs.«117900_j4363686773082_2_alg».proof.Proof.GidB

noncomputable section

namespace Cert.GN

open Idealize.ShloMosaic Idealize.ShloMosaic.ValueIdx Cert.ReferenceIdeal

theorem slot_sizes : slot sizes = fun i => BitVec.ofNat 32 (grp (i 0)).val := by
  funext i
  obtain ⟨a, rfl⟩ : ∃ a : Fin 256, i = ix1 a := ⟨i 0, eq_ix1 i⟩
  rw [slot_eq_slotAt]
  obtain ⟨k, hk⟩ : ∃ k, a.val / 16 = k := ⟨_, rfl⟩
  have hk16 : k < 16 := by omega
  show slotAt a = BitVec.ofNat 32 (grp a).val
  interval_cases k
  · exact slot_chunk0 a hk
  · exact slot_chunk1 a hk
  · exact slot_chunk2 a hk
  · exact slot_chunk3 a hk
  · exact slot_chunk4 a hk
  · exact slot_chunk5 a hk
  · exact slot_chunk6 a hk
  · exact slot_chunk7 a hk
  · exact slot_chunk8 a hk
  · exact slot_chunk9 a hk
  · exact slot_chunk10 a hk
  · exact slot_chunk11 a hk
  · exact slot_chunk12 a hk
  · exact slot_chunk13 a hk
  · exact slot_chunk14 a hk
  · exact slot_chunk15 a hk

/-- The channel -> group map at the stated sizes. -/
theorem gid_sizes : gid sizes = fun i => BitVec.ofNat 32 (grp (i 0)).val := by
  unfold gid
  rw [slot_sizes]
  funext i
  obtain ⟨a, rfl⟩ : ∃ a : Fin 256, i = ix1 a := ⟨i 0, eq_ix1 i⟩
  revert a
  decide +kernel

/-- Each group has as many channels as its stated size. -/
theorem card_grp (g : Fin 8) : (Finset.univ.filter fun c : Fin 256 => grp c = g).card = (Cert.Pre_finite_inputs.lit0 g).toNat := by
  revert g
  decide +kernel

end Cert.GN

end
-- ==== Proof.LibVar.lean ====
/-
  A variance computed from a sum and a sum of squares is nonnegative when the divisor is at least the number of
  summed terms (Cauchy-Schwarz), stated for sums of block sums: the population is a finite family of blocks, block j
  contributing its sum `A j` and its sum of squares `B j`, with `(A j)^2 ≤ L * B j` for blocks of `L` terms.
  Also: coercion of a finite real sum into the extended reals.
-/
import Mathlib.Algebra.Order.Chebyshev
import Mathlib.Data.EReal.Operations
import Mathlib.Data.EReal.Inv

namespace Cert.LibVar

/-- `(∑ A)^2 ≤ (K L) ∑ B` when there are at most `K` blocks and each block has `(A j)^2 ≤ L (B j)`. -/
theorem sq_sum_le {ι : Type*} (J : Finset ι) (A B : ι → ℝ) (L K : ℝ) (hL : 0 < L) (hK0 : 0 < K)
    (hK : (J.card : ℝ) ≤ K) (hAB : ∀ j ∈ J, (A j) ^ 2 ≤ L * B j) :
    (∑ j ∈ J, A j) ^ 2 ≤ K * L * ∑ j ∈ J, B j := by
  have h1 : (∑ j ∈ J, A j) ^ 2 ≤ (J.card : ℝ) * ∑ j ∈ J, (A j) ^ 2 := sq_sum_le_card_mul_sum_sq
  have h2 : ∑ j ∈ J, (A j) ^ 2 ≤ L * ∑ j ∈ J, B j := by rw [Finset.mul_sum]; exact Finset.sum_le_sum hAB
  have h3 : 0 ≤ ∑ j ∈ J, (A j) ^ 2 := Finset.sum_nonneg fun j _ => sq_nonneg _
  calc (∑ j ∈ J, A j) ^ 2 ≤ (J.card : ℝ) * ∑ j ∈ J, (A j) ^ 2 := h1
    _ ≤ K * ∑ j ∈ J, (A j) ^ 2 := mul_le_mul_of_nonneg_right hK h3
    _ ≤ K * (L * ∑ j ∈ J, B j) := mul_le_mul_of_nonneg_left h2 hK0.le
    _ = K * L * ∑ j ∈ J, B j := by ring

/-- The variance `Q / n - (S / n)^2` is nonnegative when `S^2 ≤ n Q`, `n > 0`. -/
theorem var_nonneg (S Q n : ℝ) (hn : 0 < n) (h : S ^ 2 ≤ n * Q) : 0 ≤ Q / n - (S / n) ^ 2 := by
  rw [div_pow, sub_nonneg, div_le_div_iff₀ (by positivity) hn]
  calc S ^ 2 * n ≤ n * Q * n := mul_le_mul_of_nonneg_right h hn.le
    _ = Q * n ^ 2 := by ring

/-- A block of `L` terms: `(∑ x)^2 ≤ L ∑ x^2`. -/
theorem sq_sum_fin_le (L : ℕ) (x : Fin L → ℝ) : (∑ l, x l) ^ 2 ≤ (L : ℝ) * ∑ l, x l * x l := by
  have := sq_sum_le_card_mul_sum_sq (s := (Finset.univ : Finset (Fin L))) (f := x)
  simpa [pow_two] using this

/-- The extended-real sum of real terms is the real sum. -/
theorem coe_sum {ι : Type*} (J : Finset ι) (f : ι → ℝ) : (∑ j ∈ J, (f j : EReal)) = ((∑ j ∈ J, f j : ℝ) : EReal) := by
  classical
  induction J using Finset.induction_on with
  | empty => simp
  | insert a s ha ih => rw [Finset.sum_insert ha, Finset.sum_insert ha, ih, EReal.coe_add]

end Cert.LibVar
-- ==== Proof.Variance.lean ====
/-
  The group variance is nonnegative at the stated group sizes, so the kernel's clamp at zero changes nothing; and the
  group statistics are real numbers.

  A segment sum reads, at (g, n), the sum of the per-channel values over the channels c of group g (the updates whose
  scatter index, the channel's group, lands on row g). With S, Q the segment sums of the per-channel sums and sums of
  squares, each channel a block of 3136 terms, Cauchy-Schwarz gives S^2 ≤ (size g * 3136) * Q: the divisor `cnt` is
  exactly the number of summed terms.
-/
import proofs.«117900_j4363686773082_2_alg».proof.Proof.Spec
import proofs.«117900_j4363686773082_2_alg».proof.Proof.Gid
import proofs.«117900_j4363686773082_2_alg».proof.Proof.LibVar
import Idealize.ShloMosaic.PureOps.Ideal.Laws
import Idealize.ShloMosaic.Lib.ValueLayout
import Idealize.ShloMosaic.Lib.Pipeline.Value

noncomputable section

namespace Cert.GN

open Idealize.ShloMosaic Idealize.ShloMosaic.ValueIdx Cert.ReferenceIdeal Cert.ReferenceIdeal.Facts₀

/-! ## The float constants -/

theorem c_zero : Ideal.ofBits .f32 0x00000000#32 = 0 := by simp [Ideal.ofBits, Ideal.ieee]
theorem c_hw : Ideal.ofBits .f32 0x45440000#32 = ((3136 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num

/-! ## Where a segment-sum update lands -/

abbrev sd := scatter_S8x64_S256x1_S256x64_1_0_0_1

theorem win0 (j : S256x64.Idx) : sd.window j 0 = 0 := rfl
theorem win1 (j : S256x64.Idx) : sd.window j 1 = (j 1).val := rfl
theorem st1 (idx : IVec S256x1 32) (j : S256x64.Idx) : sd.start j idx 1 = 0 := rfl
theorem st0 (idx : IVec S256x1 32) (j : S256x64.Idx) :
    sd.start j idx 0 = (idx (ix2 (n0 := 256) (n1 := 1) ⟨(j 0).val, idx2_lt0 j⟩ 0)).toInt := by
  unfold ScatterDims.start
  rw [dif_pos (by decide)]
  refine congrArg (fun k => (idx k).toInt) (funext fun b => ?_)
  match b with
  | ⟨0, _⟩ => rfl
  | ⟨1, _⟩ => rfl

/-- The update at (c, n) lands at row `idx[c]`, column n. -/
theorem land {idx : IVec S256x1 32} {j : S256x64.Idx} {i : S8x64.Idx} (h : sd.resultIdx? j idx = some i) :
    ((i 0).val : Int) = (idx (ix2 (n0 := 256) (n1 := 1) ⟨(j 0).val, idx2_lt0 j⟩ 0)).toInt ∧ (i 1).val = (j 1).val := by
  unfold ScatterDims.resultIdx? at h
  split at h
  · rename_i hb
    have h' := Option.some.inj h
    subst h'
    have h0 := (hb 0).1
    rw [win0, st0] at h0
    constructor
    · show (((sd.start j idx 0 + (sd.window j 0 : ℕ)).toNat : ℕ) : Int) = _
      rw [win0, st0]
      simp only [Nat.cast_zero, add_zero] at h0 ⊢
      exact Int.toNat_of_nonneg h0
    · show (sd.start j idx 1 + (sd.window j 1 : ℕ)).toNat = _
      rw [st1, win1]
      simp
  · cases h

/-! ## A segment sum read at (g, n) -/

/-- The update indices that land on `i`. -/
def landing (g : IVec S256 32) (i : S8x64.Idx) : Finset S256x64.Idx :=
  Finset.univ.filter fun j => sd.resultIdx? j (broadcastInDim S256x1 ![0] bcast_S256_S256x1_0 g) = some i

theorem seg_apply (g : IVec S256 32) (a : FVec Ideal S64x256 .f32) (i : S8x64.Idx) :
    seg g a i = 0 + ∑ j ∈ landing g i, a (ix2 (n0 := 64) (n1 := 256) ⟨(j 1).val, idx2_lt1 j⟩ ⟨(j 0).val, idx2_lt0 j⟩) := by
  unfold seg landing Host.scatterAdd
  rw [Ideal.hostScatterAdd_def]
  unfold Ideal.hostScatterAdd
  show Ideal.ofBits .f32 0x00000000#32 + _ = _
  rw [c_zero]
  refine congrArg (fun z => (0 : EReal) + z) (Finset.sum_congr rfl fun j _ => ?_)
  exact transpose_apply _ a _ j _ fun c => match c with | ⟨0, _⟩ => rfl | ⟨1, _⟩ => rfl

/-- At the stated sizes an update landing on (g, n) comes from a channel of group g, for sample n. -/
theorem landing_sizes {i : S8x64.Idx} {j : S256x64.Idx} (h : j ∈ landing (gid sizes) i) :
    grp ⟨(j 0).val, idx2_lt0 j⟩ = ⟨(i 0).val, idx2_lt0 i⟩ ∧ (j 1).val = (i 1).val := by
  unfold landing at h
  have h' := land (Finset.mem_filter.mp h).2
  refine ⟨?_, h'.2.symm⟩
  have hb : broadcastInDim S256x1 ![0] bcast_S256_S256x1_0 (gid sizes) (ix2 (n0 := 256) (n1 := 1) ⟨(j 0).val, idx2_lt0 j⟩ 0)
      = BitVec.ofNat 32 (grp ⟨(j 0).val, idx2_lt0 j⟩).val := by
    rw [broadcastInDim_apply _ _ _ _ (ix1 (n := 256) ⟨(j 0).val, idx2_lt0 j⟩) (fun a => by match a with | ⟨0, _⟩ => rfl), gid_sizes]
  have h8 : (grp ⟨(j 0).val, idx2_lt0 j⟩).val < 8 := (grp _).isLt
  have ht : (BitVec.ofNat 32 (grp ⟨(j 0).val, idx2_lt0 j⟩).val).toInt = ((grp ⟨(j 0).val, idx2_lt0 j⟩).val : Int) := by
    exact (by decide : ∀ v : Fin 8, (BitVec.ofNat 32 v.val).toInt = (v.val : Int)) _
  have e1 : ((i 0).val : Int) = ((grp ⟨(j 0).val, idx2_lt0 j⟩).val : Int) := by rw [← ht, ← hb]; exact h'.1
  exact Fin.ext (by show (grp ⟨(j 0).val, idx2_lt0 j⟩).val = (i 0).val; omega)

/-- At most `size g` updates land on (g, n). -/
theorem card_landing (i : S8x64.Idx) :
    (landing (gid sizes) i).card ≤ (Cert.Pre_finite_inputs.lit0 ⟨(i 0).val, idx2_lt0 i⟩).toNat := by
  rw [← card_grp]
  refine Finset.card_le_card_of_injOn (fun j : S256x64.Idx => (⟨(j 0).val, idx2_lt0 j⟩ : Fin 256)) ?_ ?_
  · intro j hj
    exact Finset.mem_filter.mpr ⟨Finset.mem_univ _, (landing_sizes hj).1⟩
  · intro j hj j' hj' e
    have e0 : (j 0).val = (j' 0).val := congrArg Fin.val e
    have e1 : (j 1).val = (j' 1).val := ((landing_sizes hj).2).trans ((landing_sizes hj').2).symm
    rw [eq_ix2 j, eq_ix2 j']
    exact congrArg₂ ix2 (Fin.ext e0) (Fin.ext e1)

/-! ## The group statistics are real numbers and the variance is nonnegative -/

theorem lit0_pos (g : Fin 8) : 0 < (Cert.Pre_finite_inputs.lit0 g).toNat := by revert g; decide
theorem lit0_toInt (g : Fin 8) : (Cert.Pre_finite_inputs.lit0 g).toInt = ((Cert.Pre_finite_inputs.lit0 g).toNat : Int) := by
  revert g; decide

/-- The count at (g, n): the group's size times 3136. -/
theorem cnt_sizes (i : S8x64.Idx) :
    (cnt sizes : FVec Ideal S8x64 .f32) i
      = ((((Cert.Pre_finite_inputs.lit0 ⟨(i 0).val, idx2_lt0 i⟩).toNat : ℝ) * 3136 : ℝ) : EReal) := by
  unfold cnt
  rw [broadcastInDim_apply _ _ _ _ (ix2 (n0 := 8) (n1 := 1) ⟨(i 0).val, idx2_lt0 i⟩ 0)
      (fun a => by match a with | ⟨0, _⟩ => rfl | ⟨1, _⟩ => rfl),
    broadcastInDim_apply _ _ _ _ (ix1 (n := 8) ⟨(i 0).val, idx2_lt0 i⟩) (fun a => by match a with | ⟨0, _⟩ => rfl)]
  show ((((sizes (ix1 (n := 8) ⟨(i 0).val, idx2_lt0 i⟩)).toInt : ℝ)) : EReal) * Ideal.ofBits .f32 0x45440000#32 = _
  have hs : sizes (ix1 (n := 8) ⟨(i 0).val, idx2_lt0 i⟩) = Cert.Pre_finite_inputs.lit0 ⟨(i 0).val, idx2_lt0 i⟩ := by
    unfold sizes; exact congrArg _ (Fin.ext (Shape.rowMajor_val_one _))
  rw [c_hw, ← EReal.coe_mul, hs, lit0_toInt]
  norm_cast

/-- A real array read as an array of extended reals. -/
def coeArr {s : Shape} (A : s.Idx → ℝ) : FVec Ideal s .f32 := fun k => (A k : EReal)

/-- With real per-channel sums `A` and sums of squares `B` (each channel a block of 3136 terms, so
    `A^2 ≤ 3136 B`), the group mean and variance at (g, n) are real numbers and the variance is nonnegative. -/
theorem stats_real (A B : S64x256.Idx → ℝ) (hAB : ∀ k, A k ^ 2 ≤ 3136 * B k) (i : S8x64.Idx) :
    ∃ mu v : ℝ, 0 ≤ v ∧
      mean (seg (gid sizes) (coeArr A)) (cnt sizes) i = (mu : EReal) ∧
      vari (seg (gid sizes) (coeArr B)) (seg (gid sizes) (coeArr A)) (cnt sizes) i = (v : EReal) := by
  obtain ⟨K, hK⟩ : ∃ K : ℝ, K = ((Cert.Pre_finite_inputs.lit0 ⟨(i 0).val, idx2_lt0 i⟩).toNat : ℝ) := ⟨_, rfl⟩
  have hK0 : 0 < K := by rw [hK]; exact_mod_cast lit0_pos _
  have hn : 0 < K * 3136 := by positivity
  obtain ⟨S, hS⟩ : ∃ S : ℝ, S = ∑ j ∈ landing (gid sizes) i, A (ix2 (n0 := 64) (n1 := 256) ⟨(j 1).val, idx2_lt1 j⟩ ⟨(j 0).val, idx2_lt0 j⟩) := ⟨_, rfl⟩
  obtain ⟨Q, hQ⟩ : ∃ Q : ℝ, Q = ∑ j ∈ landing (gid sizes) i, B (ix2 (n0 := 64) (n1 := 256) ⟨(j 1).val, idx2_lt1 j⟩ ⟨(j 0).val, idx2_lt0 j⟩) := ⟨_, rfl⟩
  have hs : seg (gid sizes) (coeArr A) i = (S : EReal) := by
    rw [seg_apply, zero_add]; unfold coeArr; rw [Cert.LibVar.coe_sum, hS]
  have hq : seg (gid sizes) (coeArr B) i = (Q : EReal) := by
    rw [seg_apply, zero_add]; unfold coeArr; rw [Cert.LibVar.coe_sum, hQ]
  have hc : (cnt sizes : FVec Ideal S8x64 .f32) i = ((K * 3136 : ℝ) : EReal) := by rw [cnt_sizes, hK]
  have hSQ : S ^ 2 ≤ K * 3136 * Q := by
    rw [hS, hQ]
    exact Cert.LibVar.sq_sum_le _ _ _ 3136 K (by norm_num) hK0 (by rw [hK]; exact_mod_cast card_landing i) (fun j _ => hAB _)
  have hmean : mean (seg (gid sizes) (coeArr A)) (cnt sizes) i = ((S / (K * 3136) : ℝ) : EReal) := by
    show Ideal.div (seg (gid sizes) (coeArr A) i) ((cnt sizes : FVec Ideal S8x64 .f32) i) = _
    rw [hs, hc, Ideal.div_coe hn.ne', ← EReal.coe_mul]
    congr 1; ring
  refine ⟨S / (K * 3136), Q / (K * 3136) - (S / (K * 3136)) ^ 2, Cert.LibVar.var_nonneg S Q _ hn hSQ, hmean, ?_⟩
  show Ideal.div (seg (gid sizes) (coeArr B) i) ((cnt sizes : FVec Ideal S8x64 .f32) i)
      - mean (seg (gid sizes) (coeArr A)) (cnt sizes) i * mean (seg (gid sizes) (coeArr A)) (cnt sizes) i = _
  rw [hmean, hq, hc, Ideal.div_coe hn.ne', ← EReal.coe_mul, ← EReal.coe_mul, ← EReal.coe_sub]
  congr 1; ring

theorem c_eps : Ideal.ofBits .f32 0x2B8CBCCC#32 = (((9223372 : ℝ) / 2 ^ 63 : ℝ) : EReal) := by
  simp [Ideal.ofBits, Ideal.ieee, -EReal.coe_mul]; norm_num

/-- `1 / sqrt (v + eps)` is a real number for `v ≥ 0`. -/
theorem ivar_real (V : FVec Ideal S8x64 .f32) (i : S8x64.Idx) (v : ℝ) (hv : 0 ≤ v) (h : V i = (v : EReal)) :
    ∃ r : ℝ, ivar V i = (r : EReal) := by
  have hpos : 0 < v + 9223372 / 2 ^ 63 := by positivity
  refine ⟨1 * (1 / Real.sqrt (v + 9223372 / 2 ^ 63)), ?_⟩
  show Ideal.div (Ideal.ofBits .f32 0x3F800000#32) (Ideal.sqrt (V i + Ideal.ofBits .f32 0x2B8CBCCC#32)) = _
  rw [h, c_eps, c_one, ← EReal.coe_add, Ideal.sqrt_coe, if_neg (not_lt.mpr hpos.le),
    Ideal.div_coe (Real.sqrt_pos.mpr hpos).ne', ← EReal.coe_mul]

/-- Clamping a nonnegative real at zero from below changes nothing. -/
theorem clamp_eq (V : FVec Ideal S8x64 .f32) (i : S8x64.Idx) (v : ℝ) (hv : 0 ≤ v) (h : V i = (v : EReal)) :
    clampVar V i = V i := by
  show max (V i) (Ideal.ofBits .f32 0x00000000#32) = V i
  rw [c_zero, h]
  exact max_eq_left (by exact_mod_cast hv)

end Cert.GN

end
-- ==== Proof.Bridge.lean ====
/-
  The kernel's result and the reference's are one function of the arguments, at the stated group sizes and on real inputs.

  Per (n, c) row both programs sum x and x^2 over the 3136 positions (the kernel over rows of x as [16384, 3136], the
  reference over the last axis of x as [64, 256, 3136]: the same elements). The group statistics then agree, the
  kernel's clamp of the variance being idle since the variance is nonnegative; and with real mean M, inverse
  deviation I, weight W, bias B:  x (I W) + (B - M (I W)) = ((x - M) I) W + B.
-/
import proofs.«117900_j4363686773082_2_alg».proof.Proof.Variance

noncomputable section

namespace Cert.GN

open Idealize.ShloMosaic Idealize.ShloMosaic.ValueIdx Cert.ReferenceIdeal

open Cert.ReferenceIdeal.Facts₀

/-! ## Layout -/

/-- Two reshapes of one array agree where the row-major positions agree. -/
theorem shapeCast_congr {s t t' : Shape} {α : Type} (x : s.Idx → α) (h : s.ShapeCasts t) (h' : s.ShapeCasts t')
    (j : t.Idx) (j' : t'.Idx) (e : (t.rowMajor j).val = (t'.rowMajor j').val) :
    shapeCast t x h j = shapeCast t' x h' j' := by
  have hlt : (t.rowMajor j).val < s.numel := by
    exact lt_of_lt_of_eq (t.rowMajor j).isLt h
  rw [shapeCast_apply x h j (s.rowMajor.symm ⟨_, hlt⟩) (by rw [Equiv.apply_symm_apply]),
    shapeCast_apply x h' j' (s.rowMajor.symm ⟨_, hlt⟩) (by rw [Equiv.apply_symm_apply]; exact e)]

variable {F : FTy → Type} [FloatOps F]

/-- Row `256 n + c` of x as [16384, 3136] is the (n, c) fibre of x as [64, 256, 3136]. -/
theorem x2_eq_x3 (x : FVec F S64x256x56x56 .f32) (n : Fin 64) (c : Fin 256) (l : Fin 3136) (r : Fin 16384)
    (hr : r.val = n.val * 256 + c.val) : x2 x (ix2 r l) = x3 x (ix3 n c l) := by
  unfold x2 x3
  refine shapeCast_congr x _ _ _ _ ?_
  rw [Shape.rowMajor_val_two, Shape.rowMajor_val_three]
  show r.val * 3136 + l.val = (n.val * 256 + c.val) * 3136 + l.val
  rw [hr]

theorem spread_apply (a : FVec F S64x256 .f32) (n : Fin 64) (c : Fin 256) (l : Fin 3136) :
    spread a (ix3 n c l) = a (ix2 n c) := by
  unfold spread
  rw [broadcastInDim_apply _ _ _ _ (ix3 (n0 := 64) (n1 := 256) (n2 := 1) n c 0)
      (fun a => by match a with | ⟨0, _⟩ => rfl | ⟨1, _⟩ => rfl | ⟨2, _⟩ => rfl),
    broadcastInDim_apply _ _ _ _ (ix2 n c) (fun a => by match a with | ⟨0, _⟩ => rfl | ⟨1, _⟩ => rfl)]

theorem spreadCh_apply (w : FVec F S256 .f32) (n : Fin 64) (c : Fin 256) (l : Fin 3136) :
    spreadCh w (ix3 n c l) = w (ix1 c) := by
  unfold spreadCh
  rw [broadcastInDim_apply _ _ _ _ (ix3 (n0 := 1) (n1 := 256) (n2 := 1) 0 c 0)
      (fun a => by match a with | ⟨0, _⟩ => rfl | ⟨1, _⟩ => rfl | ⟨2, _⟩ => rfl),
    broadcastInDim_apply _ _ _ _ (ix1 c) (fun a => by match a with | ⟨0, _⟩ => rfl)]

theorem spreadCh2_apply (w : FVec F S256 .f32) (n : Fin 64) (c : Fin 256) :
    spreadCh2 w (ix2 n c) = w (ix1 c) := by
  unfold spreadCh2
  rw [broadcastInDim_apply _ _ _ _ (ix2 (n0 := 1) (n1 := 256) 0 c)
      (fun a => by match a with | ⟨0, _⟩ => rfl | ⟨1, _⟩ => rfl),
    broadcastInDim_apply _ _ _ _ (ix1 c) (fun a => by match a with | ⟨0, _⟩ => rfl)]

/-- A [64, 256] array laid out as a [16384, 1] column, read at row `256 n + c`. -/
theorem col_apply (a : FVec F S64x256 .f32) (h : S64x256.ShapeCasts S16384x1) (n : Fin 64) (c : Fin 256) (r : Fin 16384)
    (hr : r.val = n.val * 256 + c.val) : shapeCast S16384x1 a h (ix2 r 0) = a (ix2 n c) := by
  refine shapeCast_apply a h _ _ ?_
  rw [Shape.rowMajor_val_two, Shape.rowMajor_val_two]
  show n.val * 256 + c.val = r.val * 1 + 0
  omega

/-- Gather by group then transpose reads the per-group array at one place. -/
theorem perCh_apply (g : IVec S256 32) (n : Fin 64) (c : Fin 256) :
    ∃ k : S8x64.Idx, ∀ a : FVec Ideal S8x64 .f32, perCh g a (ix2 n c) = a k :=
  ⟨gather_S8x64_S256x1_S256x64_1_0_n_n_0_1_164.operandIdx (ix2 c n) (broadcastInDim S256x1 ![0] bcast_S256_S256x1_0
      (select (cmpi .slt g (broadcastInDim S256 ![] bcast_S_S256 (constantI S_ 32 0#32)))
        (addi g (broadcastInDim S256 ![] bcast_S_S256 (constantI S_ 32 8#32))) g)), fun a => by
    unfold perCh
    rw [transpose_ix2_apply]
    rfl⟩

/-! ## The per-channel sums -/

theorem red3 : S64x256x3136.Reduces [2] S64x256 := by decide

/-- The host sum over the last axis at (n, c). -/
theorem sum3_apply (Y : FVec Ideal S64x256x3136 .f32) (k : S64x256.Idx) :
    Host.reduceAdd Y (constant S_ .f32 0x00000000#32) reducesTo_S64x256x3136_S64x256_d2 h_S_ k
      = 0 + ∑ l : Fin 3136, Y (ix3 (n0 := 64) (n1 := 256) ⟨(k 0).val, idx2_lt0 k⟩ ⟨(k 1).val, idx2_lt1 k⟩ l) := by
  unfold Host.reduceAdd
  rw [Ideal.hostReduceAdd_def, Ideal.hostReduceAdd_single _ red3]
  show Ideal.ofBits .f32 0x00000000#32 + _ = _
  rw [c_zero]
  refine congrArg (fun z => (0 : EReal) + z) (Finset.sum_congr rfl fun l _ => congrArg Y (funext fun a => ?_))
  match a with
  | ⟨0, _⟩ => rfl
  | ⟨1, _⟩ => rfl
  | ⟨2, _⟩ => rfl

/-- The kernel's row sums, laid out [64, 256], are the reference's per-channel sums. -/
theorem rowSum_cast (x : FVec Ideal S64x256x56x56 .f32) (h : S16384x1.ShapeCasts S64x256) :
    shapeCast S64x256 (rowSum (x2 x)) h = chSum x := by
  funext k
  have hlt : (k 0).val * 256 + (k 1).val < 16384 := by have := idx2_lt0 k; have := idx2_lt1 k; omega
  rw [shapeCast_apply _ h k (ix2 (n0 := 16384) (n1 := 1) ⟨(k 0).val * 256 + (k 1).val, hlt⟩ 0)
    (by rw [Shape.rowMajor_val_two, Shape.rowMajor_val_two]; show ((k 0).val * 256 + (k 1).val) * 1 + 0 = (k 0).val * 256 + (k 1).val; omega)]
  unfold chSum
  rw [sum3_apply, zero_add]
  unfold rowSum
  exact Finset.sum_congr rfl fun l _ => x2_eq_x3 x ⟨(k 0).val, idx2_lt0 k⟩ ⟨(k 1).val, idx2_lt1 k⟩ l _ rfl

theorem rowSq_cast (x : FVec Ideal S64x256x56x56 .f32) (h : S16384x1.ShapeCasts S64x256) :
    shapeCast S64x256 (rowSq (x2 x)) h = chSq x := by
  funext k
  have hlt : (k 0).val * 256 + (k 1).val < 16384 := by have := idx2_lt0 k; have := idx2_lt1 k; omega
  rw [shapeCast_apply _ h k (ix2 (n0 := 16384) (n1 := 1) ⟨(k 0).val * 256 + (k 1).val, hlt⟩ 0)
    (by rw [Shape.rowMajor_val_two, Shape.rowMajor_val_two]; show ((k 0).val * 256 + (k 1).val) * 1 + 0 = (k 0).val * 256 + (k 1).val; omega)]
  unfold chSq
  rw [sum3_apply, zero_add]
  unfold rowSq
  refine Finset.sum_congr rfl fun l _ => ?_
  rw [x2_eq_x3 x ⟨(k 0).val, idx2_lt0 k⟩ ⟨(k 1).val, idx2_lt1 k⟩ l _ rfl]
  rfl

/-! ## The two results are one function -/

theorem ker_eq_ref (x : FVec Ideal S64x256x56x56 .f32) (w b : FVec Ideal S256 .f32)
    (hx : ∀ i, ∃ r : ℝ, x i = (r : EReal)) (hw : ∀ i, ∃ r : ℝ, w i = (r : EReal)) (hb : ∀ i, ∃ r : ℝ, b i = (r : EReal)) :
    kerOut x w b sizes = refOut x w b sizes := by
  -- x as [64, 256, 3136] is an array of reals
  have hy : ∀ j, ∃ r : ℝ, x3 x j = (r : EReal) := fun j => hx _
  choose yr hyr using hy
  -- the per-channel sums are real, with the block inequality
  have hA : chSum x = coeArr fun k : S64x256.Idx =>
      ∑ l : Fin 3136, yr (ix3 (n0 := 64) (n1 := 256) ⟨(k 0).val, idx2_lt0 k⟩ ⟨(k 1).val, idx2_lt1 k⟩ l) := by
    funext k
    unfold chSum coeArr
    rw [sum3_apply, zero_add, ← Cert.LibVar.coe_sum]
    exact Finset.sum_congr rfl fun l _ => hyr _
  have hB : chSq x = coeArr fun k : S64x256.Idx =>
      ∑ l : Fin 3136, yr (ix3 (n0 := 64) (n1 := 256) ⟨(k 0).val, idx2_lt0 k⟩ ⟨(k 1).val, idx2_lt1 k⟩ l)
        * yr (ix3 (n0 := 64) (n1 := 256) ⟨(k 0).val, idx2_lt0 k⟩ ⟨(k 1).val, idx2_lt1 k⟩ l) := by
    funext k
    unfold chSq coeArr
    rw [sum3_apply, zero_add, ← Cert.LibVar.coe_sum]
    refine Finset.sum_congr rfl fun l _ => ?_
    rw [mulf_apply, hyr, EReal.coe_mul]
  have hAB : ∀ k : S64x256.Idx,
      (∑ l : Fin 3136, yr (ix3 (n0 := 64) (n1 := 256) ⟨(k 0).val, idx2_lt0 k⟩ ⟨(k 1).val, idx2_lt1 k⟩ l)) ^ 2
        ≤ 3136 * ∑ l : Fin 3136, yr (ix3 (n0 := 64) (n1 := 256) ⟨(k 0).val, idx2_lt0 k⟩ ⟨(k 1).val, idx2_lt1 k⟩ l)
          * yr (ix3 (n0 := 64) (n1 := 256) ⟨(k 0).val, idx2_lt0 k⟩ ⟨(k 1).val, idx2_lt1 k⟩ l) := fun k => by
    have := Cert.LibVar.sq_sum_fin_le 3136 fun l => yr (ix3 (n0 := 64) (n1 := 256) ⟨(k 0).val, idx2_lt0 k⟩ ⟨(k 1).val, idx2_lt1 k⟩ l)
    norm_num at this ⊢
    exact this
  unfold kerOut refOut
  dsimp only
  rw [rowSum_cast, rowSq_cast, hA, hB]
  -- the clamp is idle
  rw [show clampVar (vari (seg (gid sizes) (coeArr _)) (seg (gid sizes) (coeArr _)) (cnt sizes))
      = vari (seg (gid sizes) (coeArr _)) (seg (gid sizes) (coeArr _)) (cnt sizes) from funext fun i => by
    obtain ⟨mu, v, hv, _, hvv⟩ := stats_real _ _ hAB i
    exact clamp_eq _ i v hv hvv]
  -- the per-channel mean and inverse deviation are real
  have hmc : ∀ n c, ∃ r : ℝ, perCh (gid sizes) (mean (seg (gid sizes) (coeArr _)) (cnt sizes)) (ix2 n c) = (r : EReal) := fun n c => by
    obtain ⟨k, hk⟩ := perCh_apply (gid sizes) n c
    obtain ⟨mu, v, hv, hmu, hvv⟩ := stats_real _ _ hAB k
    exact ⟨mu, (hk _).trans hmu⟩
  have hic : ∀ n c, ∃ r : ℝ, perCh (gid sizes) (ivar (vari (seg (gid sizes) (coeArr _)) (seg (gid sizes) (coeArr _)) (cnt sizes))) (ix2 n c) = (r : EReal) := fun n c => by
    obtain ⟨k, hk⟩ := perCh_apply (gid sizes) n c
    obtain ⟨mu, v, hv, hmu, hvv⟩ := stats_real _ _ hAB k
    obtain ⟨r, hr⟩ := ivar_real _ k v hv hvv
    exact ⟨r, (hk _).trans hr⟩
  generalize perCh (gid sizes) (mean (seg (gid sizes) (coeArr _)) (cnt sizes)) = mc at hmc ⊢
  generalize perCh (gid sizes) (ivar (vari (seg (gid sizes) (coeArr _)) (seg (gid sizes) (coeArr _)) (cnt sizes))) = ic at hic ⊢
  -- read both results at (n, c, p, q)
  funext idx
  obtain ⟨n, c, p, q, rfl⟩ : ∃ (n : Fin 64) (c : Fin 256) (p q : Fin 56), idx = ix4 n c p q := ⟨idx 0, idx 1, idx 2, idx 3, eq_ix4 idx⟩
  have hR : n.val * 256 + c.val < 16384 := by omega
  have hL : p.val * 56 + q.val < 3136 := by omega
  unfold refTail
  rw [shapeCast_apply _ _ (ix4 n c p q) (ix2 (n0 := 16384) (n1 := 3136) ⟨n.val * 256 + c.val, hR⟩ ⟨p.val * 56 + q.val, hL⟩)
      (by rw [Shape.rowMajor_val_two, Shape.rowMajor_val_four]
          show (n.val * 256 + c.val) * 3136 + (p.val * 56 + q.val) = ((n.val * 256 + c.val) * 56 + p.val) * 56 + q.val
          ring),
    shapeCast_apply _ _ (ix4 n c p q) (ix3 (n0 := 64) (n1 := 256) (n2 := 3136) n c ⟨p.val * 56 + q.val, hL⟩)
      (by rw [Shape.rowMajor_val_three, Shape.rowMajor_val_four]
          show (n.val * 256 + c.val) * 3136 + (p.val * 56 + q.val) = ((n.val * 256 + c.val) * 56 + p.val) * 56 + q.val
          ring)]
  rw [addf_apply, mulf_apply, mulf_apply, subf_apply, spread_apply, spread_apply, spreadCh_apply, spreadCh_apply]
  show x2 x (ix2 ⟨n.val * 256 + c.val, hR⟩ ⟨p.val * 56 + q.val, hL⟩)
        * shapeCast S16384x1 (kerScale w ic) _ (ix2 ⟨n.val * 256 + c.val, hR⟩ 0)
      + shapeCast S16384x1 (kerShift w b mc ic) _ (ix2 ⟨n.val * 256 + c.val, hR⟩ 0) = _
  rw [col_apply _ _ n c _ rfl, col_apply _ _ n c _ rfl, x2_eq_x3 x n c _ _ rfl]
  unfold kerShift kerScale
  simp only [subf_apply, mulf_apply, spreadCh2_apply]
  obtain ⟨M, hM⟩ := hmc n c
  obtain ⟨I, hI⟩ := hic n c
  obtain ⟨W, hW⟩ := hw (ix1 c)
  obtain ⟨B, hB'⟩ := hb (ix1 c)
  simp only [hyr, hM, hI, hW, hB', ← EReal.coe_mul, ← EReal.coe_sub, ← EReal.coe_add]
  congr 1
  ring

end Cert.GN

end
-- ==== Proof.PreDecode.lean ====
/-
  What the precondition says, element by element: every entry of x, weight and bias is a real number, and
  group_sizes is the stated table 4, 12, 20, 28, 36, 44, 52, 60.
-/
import proofs.«117900_j4363686773082_2_alg».proof.Pre_finite_inputs
import proofs.«117900_j4363686773082_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.GN.PreDecode

open Idealize.ShloMosaic Idealize.ShloMosaic.ValueIdx Cert.Pre_finite_inputs Cert.Pre_finite_inputs.Facts

instance : Subsingleton S_.Idx := ⟨fun a b => funext fun d => d.elim0⟩

theorem c_inf : Ideal.ofBits .f32 0x7F800000#32 = ⊤ := by simp [Ideal.ofBits, Ideal.ieee]

/-- `|x| < +∞` makes x a real number. -/
theorem real_of_abs_lt (x : EReal) (h : Ideal.cmp .olt (max x (-x)) (Ideal.ofBits .f32 0x7F800000#32) = 1#1) :
    ∃ r : ℝ, x = (r : EReal) := by
  rw [c_inf] at h
  induction x using EReal.rec with
  | bot => exact absurd h (by simp [Ideal.cmp])
  | top => exact absurd h (by simp [Ideal.cmp])
  | coe r => exact ⟨r, rfl⟩

/-- An array all of whose entries pass `|x| < +∞` is an array of reals. -/
theorem real_of_all {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : ∃ r : ℝ, x i = (r : EReal) :=
  real_of_abs_lt (x i) h

theorem decode (x : FVec Ideal S64x256x56x56 .f32) (w b : FVec Ideal S256 .f32) (gs : IVec S8 32)
    (h : fn (F := Ideal) x w b gs = fun _ => 1#1) :
    (∀ i, ∃ r : ℝ, x i = (r : EReal)) ∧ (∀ i, ∃ r : ℝ, w i = (r : EReal)) ∧ (∀ i, ∃ r : ℝ, b i = (r : EReal))
      ∧ gs = fun i => lit0 (S8.rowMajor i) := by
  have h0 := congrFun h ix0
  dsimp only [fn, fn_part1] at h0
  obtain ⟨h13, h15⟩ := IntOp.andi_eq_one.1 h0
  obtain ⟨h8, h12⟩ := IntOp.andi_eq_one.1 h13
  obtain ⟨h3, h7⟩ := IntOp.andi_eq_one.1 h8
  refine ⟨fun i => real_of_all x _ i (Host.reduce_andi_all _ _ _ _ _ h3 i),
    fun i => real_of_all w _ i (Host.reduce_andi_all _ _ _ _ _ h7 i),
    fun i => real_of_all b _ i (Host.reduce_andi_all _ _ _ _ _ h12 i), funext fun i => ?_⟩
  exact IntOp.cmpi_eq.1 (Host.reduce_andi_all _ _ _ _ _ h15 i)

end Cert.GN.PreDecode

end
-- ==== Proof.Final.lean ====
/-
  Under the precondition (finite x, weight, bias; the stated group sizes) the kernel's result and the reference's are
  the same array.
-/
import proofs.«117900_j4363686773082_2_alg».proof.Proof.Bridge
import proofs.«117900_j4363686773082_2_alg».proof.Proof.PreDecode

noncomputable section

namespace Cert.GN

open Idealize.ShloMosaic Idealize.ShloMosaic.ValueIdx Cert.ReferenceIdeal

theorem out_eq_of_pre (x : FVec Ideal S64x256x56x56 .f32) (w b : FVec Ideal S256 .f32) (gs : IVec S8 32)
    (h : Cert.Pre_finite_inputs.fn (F := Ideal) x w b gs = fun _ => 1#1) : kerOut x w b gs = refOut x w b gs := by
  obtain ⟨hx, hw, hb, hgs⟩ := Cert.GN.PreDecode.decode x w b gs h
  subst hgs
  exact ker_eq_ref x w b hx hw hb

end Cert.GN

end
-- ==== Proof.lean ====
/-
  The certificate of the irregular-group GroupNorm kernel against its jnp reference, at the stated group sizes
  (group_sizes = 4, 12, 20, 28, 36, 44, 52, 60, which sum to the 256 channels) and finite x, weight, bias.

  Frames: the kernel's two pallas regions and the host operations around them run to completion and leave the
  arguments unchanged (generated frame certificates); the reference is a straight line of host operations.
  Values, over the extended reals: the kernel's result is `kerOut` of the arguments (per-row sums and sums of squares
  from the first region, the group statistics on the host with the variance clamped at zero, the folded per-row scale
  and shift, `x * scale + shift` from the second region) and the reference's is `refOut` (the same statistics
  without the clamp, `(x - mu) * ivar * weight + bias`). At the stated sizes each group's divisor is exactly the number
  of summed elements, so by Cauchy-Schwarz the variance is nonnegative and the clamp is idle; on real inputs the two
  affine forms agree.
-/
import proofs.«117900_j4363686773082_2_alg».proof.Defs
import proofs.«117900_j4363686773082_2_alg».proof.Proof.Gen.Kernel
import proofs.«117900_j4363686773082_2_alg».proof.Proof.Gen.Kernel.Frame
import proofs.«117900_j4363686773082_2_alg».proof.Proof.Gen.KernelIdeal
import proofs.«117900_j4363686773082_2_alg».proof.Proof.Gen.KernelIdeal.Frame
import proofs.«117900_j4363686773082_2_alg».proof.Proof.Gen.ReferenceIdeal
import proofs.«117900_j4363686773082_2_alg».proof.Proof.Gen.Pre_finite_inputs
import proofs.«117900_j4363686773082_2_alg».proof.Proof.KerRun
import proofs.«117900_j4363686773082_2_alg».proof.Proof.KerOut
import proofs.«117900_j4363686773082_2_alg».proof.Proof.RefRun
import proofs.«117900_j4363686773082_2_alg».proof.Proof.RefOut
import proofs.«117900_j4363686773082_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono
    (fun _ h c => ⟨(h c _).trans (Cert.ReferenceIdeal.RefRun.arg0_eq m c), (h c _).trans (Cert.ReferenceIdeal.RefRun.arg1_eq m c),
      (h c _).trans (Cert.ReferenceIdeal.RefRun.arg2_eq m c), (h c _).trans (Cert.ReferenceIdeal.RefRun.arg3_eq m c)⟩)
    (Cert.ReferenceIdeal.RefRun.run (F := Ideal) m ρ)

/-- Both programs end at one function of the arguments. -/
theorem algebraic : Cert.algebraic_KernelIdeal_ReferenceIdeal := by
  intro m ρ m' ρ' hpre hagree
  refine ⟨fun c => Cert.GN.refOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.KerRun.run (F := Ideal) m ρ)
    exact (Cert.KernelIdeal.KerOut.out_eq m ρ c).trans (Cert.GN.out_eq_of_pre _ _ _ _ (hpre c))
  · refine (θ_run Cert.ReferenceIdeal.defs _ _).mono
      (fun _ h c => ⟨(h c _).trans ((Cert.ReferenceIdeal.RefRun.out_eq m' c).trans ?_),
        (h c _).trans (Cert.ReferenceIdeal.RefRun.arg0_eq m' c), (h c _).trans (Cert.ReferenceIdeal.RefRun.arg1_eq m' c),
        (h c _).trans (Cert.ReferenceIdeal.RefRun.arg2_eq m' c), (h c _).trans (Cert.ReferenceIdeal.RefRun.arg3_eq m' c)⟩)
      (Cert.ReferenceIdeal.RefRun.run (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
